-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x400 : Shape := ⟨2, ![100000, 400]⟩
abbrev S2x100000 : Shape := ⟨2, ![2, 100000]⟩
abbrev S100000 : Shape := ⟨1, ![100000]⟩
abbrev S400x768 : Shape := ⟨2, ![400, 768]⟩
abbrev S768 : Shape := ⟨1, ![768]⟩
abbrev S768x768 : Shape := ⟨2, ![768, 768]⟩
abbrev S768x78 : Shape := ⟨2, ![768, 78]⟩
abbrev S78 : Shape := ⟨1, ![78]⟩
abbrev S_ : Shape := ⟨0, ![]⟩

class Facts : Prop where
  bcast_S_S100000x400 : S_.BroadcastsInDim S100000x400 (![] : Fin 0 → Fin S100000x400.rank)
  reducesTo_S100000x400_S_d0_1 : S100000x400.ReducesTo [0, 1] S_
  h_S_ : 0 < S_.numel
  bcast_S_S400x768 : S_.BroadcastsInDim S400x768 (![] : Fin 0 → Fin S400x768.rank)
  reducesTo_S400x768_S_d0_1 : S400x768.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_
  bcast_S_S768x78 : S_.BroadcastsInDim S768x78 (![] : Fin 0 → Fin S768x78.rank)
  reducesTo_S768x78_S_d0_1 : S768x78.ReducesTo [0, 1] S_
  bcast_S_S78 : S_.BroadcastsInDim S78 (![] : Fin 0 → Fin S78.rank)
  reducesTo_S78_S_d0 : S78.ReducesTo [0] S_

variable [Facts]

def fn_part3 {F : FTy → Type} [FloatOps F] (main_v48 : IVec S_ 1) (main_v49 : FVec F S78 .f32) (main_v50 : FVec F S78 .f32) : IVec S_ 1 :=
  let main_v51 : IVec S78 1 := cmpf .olt main_v49 main_v50
  let main_c_19 : IVec S_ 1 := constantI S_ 1 1#1
  let main_v52 : IVec S_ 1 := (fun x v => Host.reduce IntOp.andi x v reducesTo_S78_S_d0 h_S_) main_v51 main_c_19
  let main_v53 : IVec S_ 1 := andi main_v48 main_v52
  main_v53

def fn_part2 {F : FTy → Type} [FloatOps F] (main_arg9 : FVec F S768x768 .f32) (main_arg10 : FVec F S768 .f32) (main_arg11 : FVec F S768x78 .f32) (main_arg12 : FVec F S78 .f32) (main_v33 : IVec S_ 1) : IVec S_ 1 :=
  let main_v34 : FVec F S768x768 .f32 := Host.absf main_arg9
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg10
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768x78 .f32 := Host.absf main_arg11
  let main_cst_16 : FVec F S_ .f32 := constant S_ .f32 0x7F800000#32
  let main_v45 : FVec F S768x78 .f32 := broadcastInDim S768x78 ![] bcast_S_S768x78 main_cst_16
  let main_v46 : IVec S768x78 1 := cmpf .olt main_v44 main_v45
  let main_c_17 : IVec S_ 1 := constantI S_ 1 1#1
  let main_v47 : IVec S_ 1 := (fun x v => Host.reduce IntOp.andi x v reducesTo_S768x78_S_d0_1 h_S_) main_v46 main_c_17
  let main_v48 : IVec S_ 1 := andi main_v43 main_v47
  let main_v49 : FVec F S78 .f32 := Host.absf main_arg12
  let main_cst_18 : FVec F S_ .f32 := constant S_ .f32 0x7F800000#32
  let main_v50 : FVec F S78 .f32 := broadcastInDim S78 ![] bcast_S_S78 main_cst_18
  fn_part3 (F := F) main_v48 main_v49 main_v50

def fn_part1 {F : FTy → Type} [FloatOps F] (main_arg6 : FVec F S768 .f32) (main_arg7 : FVec F S768x768 .f32) (main_arg8 : FVec F S768 .f32) (main_arg9 : FVec F S768x768 .f32) (main_arg10 : FVec F S768 .f32) (main_arg11 : FVec F S768x78 .f32) (main_arg12 : FVec F S78 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg6
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg7
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg8
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x400 .f32) (main_arg1 : IVec S2x100000 32) (main_arg2 : IVec S100000 32) (main_arg3 : FVec F S400x768 .f32) (main_arg4 : FVec F S768 .f32) (main_arg5 : FVec F S768x768 .f32) (main_arg6 : FVec F S768 .f32) (main_arg7 : FVec F S768x768 .f32) (main_arg8 : FVec F S768 .f32) (main_arg9 : FVec F S768x768 .f32) (main_arg10 : FVec F S768 .f32) (main_arg11 : FVec F S768x78 .f32) (main_arg12 : FVec F S78 .f32) : IVec S_ 1 :=
  let main_v0 : FVec F S100000x400 .f32 := Host.absf main_arg0
  let main_cst : FVec F S_ .f32 := constant S_ .f32 0x7F800000#32
  let main_v1 : FVec F S100000x400 .f32 := broadcastInDim S100000x400 ![] bcast_S_S100000x400 main_cst
  let main_v2 : IVec S100000x400 1 := cmpf .olt main_v0 main_v1
  let main_c : IVec S_ 1 := constantI S_ 1 1#1
  let main_v3 : IVec S_ 1 := (fun x v => Host.reduce IntOp.andi x v reducesTo_S100000x400_S_d0_1 h_S_) main_v2 main_c
  let main_v4 : FVec F S400x768 .f32 := Host.absf main_arg3
  let main_cst_0 : FVec F S_ .f32 := constant S_ .f32 0x7F800000#32
  let main_v5 : FVec F S400x768 .f32 := broadcastInDim S400x768 ![] bcast_S_S400x768 main_cst_0
  let main_v6 : IVec S400x768 1 := cmpf .olt main_v4 main_v5
  let main_c_1 : IVec S_ 1 := constantI S_ 1 1#1
  let main_v7 : IVec S_ 1 := (fun x v => Host.reduce IntOp.andi x v reducesTo_S400x768_S_d0_1 h_S_) main_v6 main_c_1
  let main_v8 : IVec S_ 1 := andi main_v3 main_v7
  let main_v9 : FVec F S768 .f32 := Host.absf main_arg4
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg5
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg6 main_arg7 main_arg8 main_arg9 main_arg10 main_arg11 main_arg12 main_v13 main_v16
-- ==== Kernel.lean ====
abbrev S100000x400 : Shape := ⟨2, ![100000, 400]⟩
abbrev S2x100000 : Shape := ⟨2, ![2, 100000]⟩
abbrev S100000 : Shape := ⟨1, ![100000]⟩
abbrev S400x768 : Shape := ⟨2, ![400, 768]⟩
abbrev S768 : Shape := ⟨1, ![768]⟩
abbrev S768x768 : Shape := ⟨2, ![768, 768]⟩
abbrev S768x78 : Shape := ⟨2, ![768, 78]⟩
abbrev S78 : Shape := ⟨1, ![78]⟩
abbrev S1x100000 : Shape := ⟨2, ![1, 100000]⟩
abbrev S200000 : Shape := ⟨1, ![200000]⟩
abbrev S_ : Shape := ⟨0, ![]⟩
abbrev S200000x1 : Shape := ⟨2, ![200000, 1]⟩
abbrev S100000x1 : Shape := ⟨2, ![100000, 1]⟩
abbrev S1x768 : Shape := ⟨2, ![1, 768]⟩
abbrev S100000x768 : Shape := ⟨2, ![100000, 768]⟩
abbrev S1000x400 : Shape := ⟨2, ![1000, 400]⟩
abbrev S1000x1 : Shape := ⟨2, ![1000, 1]⟩
abbrev S1000x768 : Shape := ⟨2, ![1000, 768]⟩
abbrev S200000x768 : Shape := ⟨2, ![200000, 768]⟩
abbrev S1024x768 : Shape := ⟨2, ![1024, 768]⟩
abbrev S1024 : Shape := ⟨1, ![1024]⟩
abbrev S1024x1 : Shape := ⟨2, ![1024, 1]⟩
abbrev S1x78 : Shape := ⟨2, ![1, 78]⟩
abbrev S1024x78 : Shape := ⟨2, ![1024, 78]⟩

abbrev nBuf : Space → Nat
  | .hbm => 118
  | .vmem => 22
  | .smem => 0
  | _ => 0

abbrev bufTy : (tb : Table) → Fin (tcTables nBuf tb) → BufTy
  | .hbm, ⟨0, _⟩ => ⟨S100000x400, .f32⟩
  | .hbm, ⟨1, _⟩ => ⟨S2x100000, .i32⟩
  | .hbm, ⟨2, _⟩ => ⟨S100000, .i32⟩
  | .hbm, ⟨3, _⟩ => ⟨S400x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768, .f32⟩
  | .hbm, ⟨11, _⟩ => ⟨S768x78, .f32⟩
  | .hbm, ⟨12, _⟩ => ⟨S78, .f32⟩
  | .hbm, ⟨13, _⟩ => ⟨S100000, .i32⟩
  | .hbm, ⟨14, _⟩ => ⟨S1x100000, .i32⟩
  | .hbm, ⟨15, _⟩ => ⟨S100000, .i32⟩
  | .hbm, ⟨16, _⟩ => ⟨S200000, .i32⟩
  | .hbm, ⟨17, _⟩ => ⟨S1x100000, .i32⟩
  | .hbm, ⟨18, _⟩ => ⟨S100000, .i32⟩
  | .hbm, ⟨19, _⟩ => ⟨S200000, .i32⟩
  | .hbm, ⟨20, _⟩ => ⟨S_, .f32⟩
  | .hbm, ⟨21, _⟩ => ⟨S200000, .f32⟩
  | .hbm, ⟨22, _⟩ => ⟨S_, .f32⟩
  | .hbm, ⟨23, _⟩ => ⟨S100000, .f32⟩
  | .hbm, ⟨24, _⟩ => ⟨S200000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S400x768, .bf16⟩
  | .hbm, ⟨36, _⟩ => ⟨S768x768, .bf16⟩
  | .hbm, ⟨37, _⟩ => ⟨S768x768, .bf16⟩
  | .hbm, ⟨38, _⟩ => ⟨S768x768, .bf16⟩
  | .hbm, ⟨39, _⟩ => ⟨S768x78, .bf16⟩
  | .hbm, ⟨40, _⟩ => ⟨S1x768, .f32⟩
  | .hbm, ⟨41, _⟩ => ⟨S1x768, .f32⟩
  | .hbm, ⟨42, _⟩ => ⟨S100000x768, .f32⟩
  | .hbm, ⟨43, _⟩ => ⟨S_, .i32⟩
  | .hbm, ⟨44, _⟩ => ⟨S200000, .i32⟩
  | .hbm, ⟨45, _⟩ => ⟨S200000, .i1⟩
  | .hbm, ⟨46, _⟩ => ⟨S_, .i32⟩
  | .hbm, ⟨47, _⟩ => ⟨S200000, .i32⟩
  | .hbm, ⟨48, _⟩ => ⟨S200000, .i32⟩
  | .hbm, ⟨49, _⟩ => ⟨S200000, .i32⟩
  | .hbm, ⟨50, _⟩ => ⟨S200000x1, .i32⟩
  | .hbm, ⟨51, _⟩ => ⟨S200000x768, .f32⟩
  | .hbm, ⟨52, _⟩ => ⟨S_, .i32⟩
  | .hbm, ⟨53, _⟩ => ⟨S200000, .i32⟩
  | .hbm, ⟨54, _⟩ => ⟨S200000, .i1⟩
  | .hbm, ⟨55, _⟩ => ⟨S_, .i32⟩
  | .hbm, ⟨56, _⟩ => ⟨S200000, .i32⟩
  | .hbm, ⟨57, _⟩ => ⟨S200000, .i32⟩
  | .hbm, ⟨58, _⟩ => ⟨S200000, .i32⟩
  | .hbm, ⟨59, _⟩ => ⟨S200000x1, .i32⟩
  | .hbm, ⟨60, _⟩ => ⟨S200000, .f32⟩
  | .hbm, ⟨61, _⟩ => ⟨S200000x1, .f32⟩
  | .hbm, ⟨62, _⟩ => ⟨S200000x768, .f32⟩
  | .hbm, ⟨63, _⟩ => ⟨S200000x768, .f32⟩
  | .hbm, ⟨64, _⟩ => ⟨S_, .f32⟩
  | .hbm, ⟨65, _⟩ => ⟨S100000x768, .f32⟩
  | .hbm, ⟨66, _⟩ => ⟨S200000x1, .i32⟩
  | .hbm, ⟨67, _⟩ => ⟨S100000x768, .f32⟩
  | .hbm, ⟨68, _⟩ => ⟨S1x768, .f32⟩
  | .hbm, ⟨69, _⟩ => ⟨S100000x768, .f32⟩
  | .hbm, ⟨70, _⟩ => ⟨S100000x768, .f32⟩
  | .hbm, ⟨71, _⟩ => ⟨S100000x768, .f32⟩
  | .hbm, ⟨72, _⟩ => ⟨S_, .i32⟩
  | .hbm, ⟨73, _⟩ => ⟨S200000, .i32⟩
  | .hbm, ⟨74, _⟩ => ⟨S200000, .i1⟩
  | .hbm, ⟨75, _⟩ => ⟨S_, .i32⟩
  | .hbm, ⟨76, _⟩ => ⟨S200000, .i32⟩
  | .hbm, ⟨77, _⟩ => ⟨S200000, .i32⟩
  | .hbm, ⟨78, _⟩ => ⟨S200000, .i32⟩
  | .hbm, ⟨79, _⟩ => ⟨S200000x1, .i32⟩
  | .hbm, ⟨80, _⟩ => ⟨S200000x768, .f32⟩
  | .hbm, ⟨81, _⟩ => ⟨S_, .i32⟩
  | .hbm, ⟨82, _⟩ => ⟨S200000, .i32⟩
  | .hbm, ⟨83, _⟩ => ⟨S200000, .i1⟩
  | .hbm, ⟨84, _⟩ => ⟨S_, .i32⟩
  | .hbm, ⟨85, _⟩ => ⟨S200000, .i32⟩
  | .hbm, ⟨86, _⟩ => ⟨S200000, .i32⟩
  | .hbm, ⟨87, _⟩ => ⟨S200000, .i32⟩
  | .hbm, ⟨88, _⟩ => ⟨S200000x1, .i32⟩
  | .hbm, ⟨89, _⟩ => ⟨S200000, .f32⟩
  | .hbm, ⟨90, _⟩ => ⟨S200000x1, .f32⟩
  | .hbm, ⟨91, _⟩ => ⟨S200000x768, .f32⟩
  | .hbm, ⟨92, _⟩ => ⟨S200000x768, .f32⟩
  | .hbm, ⟨93, _⟩ => ⟨S_, .f32⟩
  | .hbm, ⟨94, _⟩ => ⟨S100000x768, .f32⟩
  | .hbm, ⟨95, _⟩ => ⟨S200000x1, .i32⟩
  | .hbm, ⟨96, _⟩ => ⟨S100000x768, .f32⟩
  | .hbm, ⟨97, _⟩ => ⟨S1x768, .f32⟩
  | .hbm, ⟨98, _⟩ => ⟨S100000x768, .f32⟩
  | .hbm, ⟨99, _⟩ => ⟨S100000x768, .f32⟩
  | .hbm, ⟨100, _⟩ => ⟨S_, .f32⟩
  | .hbm, ⟨101, _⟩ => ⟨S1024x768, .f32⟩
  | .hbm, ⟨102, _⟩ => ⟨S100000x1, .i32⟩
  | .hbm, ⟨103, _⟩ => ⟨S1024x768, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S1024, .f32⟩
  | .hbm, ⟨108, _⟩ => ⟨S100000x1, .i32⟩
  | .hbm, ⟨109, _⟩ => ⟨S1024, .f32⟩
  | .hbm, ⟨110, _⟩ => ⟨S_, .f32⟩
  | .hbm, ⟨111, _⟩ => ⟨S1024, .f32⟩
  | .hbm, ⟨112, _⟩ => ⟨S1024, .f32⟩
  | .hbm, ⟨113, _⟩ => ⟨S1024x1, .f32⟩
  | .hbm, ⟨114, _⟩ => ⟨S1024x768, .f32⟩
  | .hbm, ⟨115, _⟩ => ⟨S1024x768, .f32⟩
  | .hbm, ⟨116, _⟩ => ⟨S1x78, .f32⟩
  | .hbm, ⟨117, _⟩ => ⟨S1024x78, .f32⟩
  | .local _ .vmem, ⟨0, _⟩ => ⟨S1000x400, .f32⟩
  | .local _ .vmem, ⟨1, _⟩ => ⟨S1000x400, .f32⟩
  | .local _ .vmem, ⟨2, _⟩ => ⟨S400x768, .bf16⟩
  | .local _ .vmem, ⟨3, _⟩ => ⟨S1x768, .f32⟩
  | .local _ .vmem, ⟨4, _⟩ => ⟨S768x768, .bf16⟩
  | .local _ .vmem, ⟨5, _⟩ => ⟨S1x768, .f32⟩
  | .local _ .vmem, ⟨6, _⟩ => ⟨S768x768, .bf16⟩
  | .local _ .vmem, ⟨7, _⟩ => ⟨S1000x1, .f32⟩
  | .local _ .vmem, ⟨8, _⟩ => ⟨S1000x1, .f32⟩
  | .local _ .vmem, ⟨9, _⟩ => ⟨S1000x768, .f32⟩
  | .local _ .vmem, ⟨10, _⟩ => ⟨S1000x768, .f32⟩
  | .local _ .vmem, ⟨11, _⟩ => ⟨S1000x768, .f32⟩
  | .local _ .vmem, ⟨12, _⟩ => ⟨S1000x768, .f32⟩
  | .local _ .vmem, ⟨13, _⟩ => ⟨S768x768, .bf16⟩
  | .local _ .vmem, ⟨14, _⟩ => ⟨S1000x1, .f32⟩
  | .local _ .vmem, ⟨15, _⟩ => ⟨S1000x1, .f32⟩
  | .local _ .vmem, ⟨16, _⟩ => ⟨S1000x768, .f32⟩
  | .local _ .vmem, ⟨17, _⟩ => ⟨S1000x768, .f32⟩
  | .local _ .vmem, ⟨18, _⟩ => ⟨S1024x768, .f32⟩
  | .local _ .vmem, ⟨19, _⟩ => ⟨S768x78, .bf16⟩
  | .local _ .vmem, ⟨20, _⟩ => ⟨S1x78, .f32⟩
  | .local _ .vmem, ⟨21, _⟩ => ⟨S1024x78, .f32⟩
  | _, _ => ⟨S100000x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_c_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_7 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_9 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x768 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S768x78 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x78 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x78 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x100000_S1x100000_0_0 : S2x100000.Slices ![0, 0] S1x100000
  shapeCasts_S1x100000_S100000 : S1x100000.ShapeCasts S100000
  concatenates_S100000_S100000_S200000_d0 : Shape.Concatenates [S100000, S100000] S200000 0
  slices_S2x100000_S1x100000_1_0 : S2x100000.Slices ![1, 0] S1x100000
  bcast_S_S200000 : S_.BroadcastsInDim S200000 (![] : Fin 0 → Fin S200000.rank)
  bcast_S_S100000 : S_.BroadcastsInDim S100000 (![] : Fin 0 → Fin S100000.rank)
  bcast_S200000_S200000x1_0 : S200000.BroadcastsInDim S200000x1 (![0] : Fin 1 → Fin S200000x1.rank)
  shapeCasts_S100000_S100000x1 : S100000.ShapeCasts S100000x1
  bitsLt_bf16_f32 : FTy.bits .bf16 < FTy.bits .f32
  shapeCasts_S768_S1x768 : S768.ShapeCasts S1x768
  inb_S1000x400_S1000x400_0_0 : ∀ a, (![0, 0] : Fin 2 → Nat) a + S1000x400.size a ≤ S1000x400.size a
  h_S1000x400 : 0 < S1000x400.numel
  inb_S400x768_S400x768_0_0 : ∀ a, (![0, 0] : Fin 2 → Nat) a + S400x768.size a ≤ S400x768.size a
  h_S400x768 : 0 < S400x768.numel
  shapeCasts_S400x768_S400x768 : S400x768.ShapeCasts S400x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x768 : S1000x1.Broadcasts S1000x768
  inb_S1000x768_S1000x768_0_0 : ∀ a, (![0, 0] : Fin 2 → Nat) a + S1000x768.size a ≤ S1000x768.size a
  h_S1000x768 : 0 < S1000x768.numel
  bcast_S200000x1_S200000x768_0_1 : S200000x1.BroadcastsInDim S200000x768 (![0, 1] : Fin 2 → Fin S200000x768.rank)
  bcast_S_S100000x768 : S_.BroadcastsInDim S100000x768 (![] : Fin 0 → Fin S100000x768.rank)
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  shapeCasts_S1000x768_S1000x768 : S1000x768.ShapeCasts S1000x768
  bcast_S_S1024x768 : S_.BroadcastsInDim S1024x768 (![] : Fin 0 → Fin S1024x768.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x768_0_1 : S1024x1.BroadcastsInDim S1024x768 (![0, 1] : Fin 2 → Fin S1024x768.rank)
  shapeCasts_S78_S1x78 : S78.ShapeCasts S1x78
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x78_S768x78_0_0 : ∀ a, (![0, 0] : Fin 2 → Nat) a + S768x78.size a ≤ S768x78.size a
  h_S768x78 : 0 < S768x78.numel
  shapeCasts_S768x78_S768x78 : S768x78.ShapeCasts S768x78
  inb_S1x78_S1x78_0_0 : ∀ a, (![0, 0] : Fin 2 → Nat) a + S1x78.size a ≤ S1x78.size a
  h_S1x78 : 0 < S1x78.numel
  shapeCasts_S1x78_S1x78 : S1x78.ShapeCasts S1x78
  broadcasts_S1x78_S1024x78 : S1x78.Broadcasts S1024x78
  inb_S1024x78_S1024x78_0_0 : ∀ a, (![0, 0] : Fin 2 → Nat) a + S1024x78.size a ≤ S1024x78.size a
  h_S1024x78 : 0 < S1024x78.numel
  scatter_S100000_S200000x1_S200000_n_0_0_1_wf : ScatterDims.WF S100000 S200000x1 S200000 [] [0] [0] 1
  dot_S1000x400_S400x768_S1000x768_1_0_0_1_n_n_wf : DotDims.WF S1000x400 S400x768 S1000x768 [1] [0] [0] [1] [] []
  dot_S1000x768_S768x768_S1000x768_1_0_0_1_n_n_wf : DotDims.WF S1000x768 S768x768 S1000x768 [1] [0] [0] [1] [] []
  gather_S100000x768_S200000x1_S200000x768_1_0_n_n_0_1_1768_wf : GatherDims.WF S100000x768 S200000x1 S200000x768 [1] [0] [] [0] [] 1 ![1, 768]
  gather_S100000_S200000x1_S200000_n_0_n_n_0_1_1_wf : GatherDims.WF S100000 S200000x1 S200000 [] [0] [] [0] [] 1 ![1]
  scatter_S100000x768_S200000x1_S200000x768_1_0_0_1_wf : ScatterDims.WF S100000x768 S200000x1 S200000x768 [1] [0] [0] 1
  scatter_S1024x768_S100000x1_S100000x768_1_0_0_1_wf : ScatterDims.WF S1024x768 S100000x1 S100000x768 [1] [0] [0] 1
  scatter_S1024_S100000x1_S100000_n_0_0_1_wf : ScatterDims.WF S1024 S100000x1 S100000 [] [0] [0] 1
  dot_S1024x768_S768x78_S1024x78_1_0_0_1_n_n_wf : DotDims.WF S1024x768 S768x78 S1024x78 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x400.size a ≤ S100000x400.size a
  hwx0_0 : ∀ i : grid0.Coords, EltTy.bits .f32 = 32 ∨ (Rect.block (s := S100000x400) S1000x400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x768.size a ≤ S400x768.size a
  hwx0_1 : ∀ i : grid0.Coords, EltTy.bits .bf16 = 32 ∨ (Rect.block (s := S400x768) S400x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x1.size a ≤ S100000x1.size a
  hwx0_6 : ∀ i : grid0.Coords, EltTy.bits .f32 = 32 ∨ (Rect.block (s := S100000x1) S1000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x768.size a ≤ S100000x768.size a
  hwx0_7 : ∀ i : grid0.Coords, EltTy.bits .f32 = 32 ∨ (Rect.block (s := S100000x768) S1000x768.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x768.size a ≤ S100000x768.size a
  hwx1_0 : ∀ i : grid1.Coords, EltTy.bits .f32 = 32 ∨ (Rect.block (s := S100000x768) S1000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .bf16 = 32 ∨ (Rect.block (s := S768x768) S768x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S100000x1.size a
  hwx1_2 : ∀ i : grid1.Coords, EltTy.bits .f32 = 32 ∨ (Rect.block (s := S100000x1) S1000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x768.size a ≤ S100000x768.size a
  hwx1_3 : ∀ i : grid1.Coords, EltTy.bits .f32 = 32 ∨ (Rect.block (s := S100000x768) S1000x768.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S1024x768.size a
  hwx2_0 : ∀ i : grid2.Coords, EltTy.bits .f32 = 32 ∨ (Rect.block (s := S1024x768) S1024x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x78.size a ≤ S768x78.size a
  hwx2_1 : ∀ i : grid2.Coords, EltTy.bits .bf16 = 32 ∨ (Rect.block (s := S768x78) S768x78.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x78.size a ≤ S1x78.size a
  hwx2_2 : ∀ i : grid2.Coords, EltTy.bits .f32 = 32 ∨ (Rect.block (s := S1x78) S1x78.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x78.size a ≤ S1024x78.size a
  hwx2_3 : ∀ i : grid2.Coords, EltTy.bits .f32 = 32 ∨ (Rect.block (s := S1024x78) S1024x78.size (cc2_transform_3 i) (hinb2_3 i)).WholeWords (EltTy.packing .f32)

variable [Facts₀]

def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def dot_S1000x400_S400x768_S1000x768_1_0_0_1_n_n : DotDims S1000x400 S400x768 S1000x768 where
  lhsContracting := [1]
  rhsContracting := [0]
  lhsNonContracting := [0]
  rhsNonContracting := [1]
  lhsBatch := []
  rhsBatch := []
  wf := dot_S1000x400_S400x768_S1000x768_1_0_0_1_n_n_wf
def dot_S1000x768_S768x768_S1000x768_1_0_0_1_n_n : DotDims S1000x768 S768x768 S1000x768 where
  lhsContracting := [1]
  rhsContracting := [0]
  lhsNonContracting := [0]
  rhsNonContracting := [1]
  lhsBatch := []
  rhsBatch := []
  wf := dot_S1000x768_S768x768_S1000x768_1_0_0_1_n_n_wf
def gather_S100000x768_S200000x1_S200000x768_1_0_n_n_0_1_1768 : GatherDims S100000x768 S200000x1 S200000x768 where
  offsetDims := [1]
  collapsedSliceDims := [0]
  operandBatchingDims := []
  startIndicesBatchingDims := []
  startIndexMap := [0]
  indexVectorDim := 1
  sliceSizes := ![1, 768]
  wf := gather_S100000x768_S200000x1_S200000x768_1_0_n_n_0_1_1768_wf
def gather_S100000_S200000x1_S200000_n_0_n_n_0_1_1 : GatherDims S100000 S200000x1 S200000 where
  offsetDims := []
  collapsedSliceDims := [0]
  operandBatchingDims := []
  startIndicesBatchingDims := []
  startIndexMap := [0]
  indexVectorDim := 1
  sliceSizes := ![1]
  wf := gather_S100000_S200000x1_S200000_n_0_n_n_0_1_1_wf
def scatter_S100000x768_S200000x1_S200000x768_1_0_0_1 : ScatterDims S100000x768 S200000x1 S200000x768 where
  updateWindowDims := [1]
  insertedWindowDims := [0]
  scatterDimsToOperandDims := [0]
  indexVectorDim := 1
  wf := scatter_S100000x768_S200000x1_S200000x768_1_0_0_1_wf
def scatter_S1024x768_S100000x1_S100000x768_1_0_0_1 : ScatterDims S1024x768 S100000x1 S100000x768 where
  updateWindowDims := [1]
  insertedWindowDims := [0]
  scatterDimsToOperandDims := [0]
  indexVectorDim := 1
  wf := scatter_S1024x768_S100000x1_S100000x768_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x768_S768x78_S1024x78_1_0_0_1_n_n : DotDims S1024x768 S768x78 S1024x78 where
  lhsContracting := [1]
  rhsContracting := [0]
  lhsNonContracting := [0]
  rhsNonContracting := [1]
  lhsBatch := []
  rhsBatch := []
  wf := dot_S1024x768_S768x78_S1024x78_1_0_0_1_n_n_wf

abbrev win0_0 : Pipeline.Window sig grid0 :=
  Pipeline.Window.ofSpec (Memref.whole main_arg0) S1000x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S400x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1000x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v46) S1000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1000x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v82) S1024x768.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v20) S768x78.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v83) S1x78.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v84) S1024x78.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x400 : Shape := ⟨2, ![100000, 400]⟩
abbrev S2x100000 : Shape := ⟨2, ![2, 100000]⟩
abbrev S100000 : Shape := ⟨1, ![100000]⟩
abbrev S400x768 : Shape := ⟨2, ![400, 768]⟩
abbrev S768 : Shape := ⟨1, ![768]⟩
abbrev S768x768 : Shape := ⟨2, ![768, 768]⟩
abbrev S768x78 : Shape := ⟨2, ![768, 78]⟩
abbrev S78 : Shape := ⟨1, ![78]⟩
abbrev S100000x768 : Shape := ⟨2, ![100000, 768]⟩
abbrev S1x768 : Shape := ⟨2, ![1, 768]⟩
abbrev S_ : Shape := ⟨0, ![]⟩
abbrev S1x100000 : Shape := ⟨2, ![1, 100000]⟩
abbrev S200000 : Shape := ⟨1, ![200000]⟩
abbrev S200000x1 : Shape := ⟨2, ![200000, 1]⟩
abbrev S200000x768 : Shape := ⟨2, ![200000, 768]⟩
abbrev S1024x768 : Shape := ⟨2, ![1024, 768]⟩
abbrev S100000x1 : Shape := ⟨2, ![100000, 1]⟩
abbrev S1024 : Shape := ⟨1, ![1024]⟩
abbrev S1024x1 : Shape := ⟨2, ![1024, 1]⟩
abbrev S1024x78 : Shape := ⟨2, ![1024, 78]⟩
abbrev S1x78 : Shape := ⟨2, ![1, 78]⟩

abbrev nBuf : Space → Nat
  | .hbm => 164
  | .vmem => 0
  | .smem => 0
  | _ => 0

abbrev hbmTy0_0 (i : Nat) : BufTy := match i % 128 with
  | 0 => ⟨S100000x400, .f32⟩
  | 1 => ⟨S2x100000, .i32⟩
  | 2 => ⟨S100000, .i32⟩
  | 3 => ⟨S400x768, .f32⟩
  | 4 => ⟨S768, .f32⟩
  | 5 => ⟨S768x768, .f32⟩
  | 6 => ⟨S768, .f32⟩
  | 7 => ⟨S768x768, .f32⟩
  | 8 => ⟨S768, .f32⟩
  | 9 => ⟨S768x768, .f32⟩
  | 10 => ⟨S768, .f32⟩
  | 11 => ⟨S768x78, .f32⟩
  | 12 => ⟨S78, .f32⟩
  | 13 => ⟨S100000x768, .f32⟩
  | 14 => ⟨S1x768, .f32⟩
  | 15 => ⟨S100000x768, .f32⟩
  | 16 => ⟨S100000x768, .f32⟩
  | 17 => ⟨S_, .f32⟩
  | 18 => ⟨S100000x768, .f32⟩
  | 19 => ⟨S100000x768, .f32⟩
  | 20 => ⟨S100000x768, .f32⟩
  | 21 => ⟨S1x768, .f32⟩
  | 22 => ⟨S100000x768, .f32⟩
  | 23 => ⟨S100000x768, .f32⟩
  | 24 => ⟨S100000x768, .f32⟩
  | 25 => ⟨S100000, .i32⟩
  | 26 => ⟨S1x100000, .i32⟩
  | 27 => ⟨S100000, .i32⟩
  | 28 => ⟨S200000, .i32⟩
  | 29 => ⟨S1x100000, .i32⟩
  | 30 => ⟨S100000, .i32⟩
  | 31 => ⟨S200000, .i32⟩
  | 32 => ⟨S_, .f32⟩
  | 33 => ⟨S200000, .f32⟩
  | 34 => ⟨S_, .f32⟩
  | 35 => ⟨S100000, .f32⟩
  | 36 => ⟨S200000x1, .i32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S200000, .i32⟩
  | 48 => ⟨S200000, .i1⟩
  | 49 => ⟨S_, .i32⟩
  | 50 => ⟨S200000, .i32⟩
  | 51 => ⟨S200000, .i32⟩
  | 52 => ⟨S200000, .i32⟩
  | 53 => ⟨S200000x1, .i32⟩
  | 54 => ⟨S200000, .f32⟩
  | 55 => ⟨S_, .i32⟩
  | 56 => ⟨S200000, .i32⟩
  | 57 => ⟨S200000, .i1⟩
  | 58 => ⟨S_, .i32⟩
  | 59 => ⟨S200000, .i32⟩
  | 60 => ⟨S200000, .i32⟩
  | 61 => ⟨S200000, .i32⟩
  | 62 => ⟨S200000x1, .i32⟩
  | 63 => ⟨S200000, .f32⟩
  | 64 => ⟨S200000, .f32⟩
  | 65 => ⟨S_, .i32⟩
  | 66 => ⟨S200000, .i32⟩
  | 67 => ⟨S200000, .i1⟩
  | 68 => ⟨S_, .i32⟩
  | 69 => ⟨S200000, .i32⟩
  | 70 => ⟨S200000, .i32⟩
  | 71 => ⟨S200000, .i32⟩
  | 72 => ⟨S200000x1, .i32⟩
  | 73 => ⟨S200000x768, .f32⟩
  | 74 => ⟨S200000x1, .f32⟩
  | 75 => ⟨S200000x768, .f32⟩
  | 76 => ⟨S200000x768, .f32⟩
  | 77 => ⟨S_, .f32⟩
  | 78 => ⟨S100000x768, .f32⟩
  | 79 => ⟨S200000x1, .i32⟩
  | 80 => ⟨S100000x768, .f32⟩
  | 81 => ⟨S1x768, .f32⟩
  | 82 => ⟨S100000x768, .f32⟩
  | 83 => ⟨S100000x768, .f32⟩
  | 84 => ⟨S100000x768, .f32⟩
  | 85 => ⟨S100000, .i32⟩
  | 86 => ⟨S1x100000, .i32⟩
  | 87 => ⟨S100000, .i32⟩
  | 88 => ⟨S200000, .i32⟩
  | 89 => ⟨S1x100000, .i32⟩
  | 90 => ⟨S100000, .i32⟩
  | 91 => ⟨S200000, .i32⟩
  | 92 => ⟨S_, .f32⟩
  | 93 => ⟨S200000, .f32⟩
  | 94 => ⟨S_, .f32⟩
  | 95 => ⟨S100000, .f32⟩
  | 96 => ⟨S200000x1, .i32⟩
  | 97 => ⟨S100000, .f32⟩
  | 98 => ⟨S_, .f32⟩
  | 99 => ⟨S100000, .f32⟩
  | 100 => ⟨S100000, .i1⟩
  | 101 => ⟨S100000, .f32⟩
  | 102 => ⟨S_, .f32⟩
  | 103 => ⟨S_, .f32⟩
  | 104 => ⟨S100000, .f32⟩
  | 105 => ⟨S100000, .f32⟩
  | 106 => ⟨S_, .i32⟩
  | 107 => ⟨S200000, .i32⟩
  | 108 => ⟨S200000, .i1⟩
  | 109 => ⟨S_, .i32⟩
  | 110 => ⟨S200000, .i32⟩
  | 111 => ⟨S200000, .i32⟩
  | 112 => ⟨S200000, .i32⟩
  | 113 => ⟨S200000x1, .i32⟩
  | 114 => ⟨S200000, .f32⟩
  | 115 => ⟨S_, .i32⟩
  | 116 => ⟨S200000, .i32⟩
  | 117 => ⟨S200000, .i1⟩
  | 118 => ⟨S_, .i32⟩
  | 119 => ⟨S200000, .i32⟩
  | 120 => ⟨S200000, .i32⟩
  | 121 => ⟨S200000, .i32⟩
  | 122 => ⟨S200000x1, .i32⟩
  | 123 => ⟨S200000, .f32⟩
  | 124 => ⟨S200000, .f32⟩
  | 125 => ⟨S_, .i32⟩
  | 126 => ⟨S200000, .i32⟩
  | 127 => ⟨S200000, .i1⟩
  | _ => ⟨S100000x400, .f32⟩

abbrev hbmTy0_1 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x768, .f32⟩
  | 6 => ⟨S200000x1, .f32⟩
  | 7 => ⟨S200000x768, .f32⟩
  | 8 => ⟨S200000x768, .f32⟩
  | 9 => ⟨S_, .f32⟩
  | 10 => ⟨S100000x768, .f32⟩
  | 11 => ⟨S200000x1, .i32⟩
  | 12 => ⟨S100000x768, .f32⟩
  | 13 => ⟨S1x768, .f32⟩
  | 14 => ⟨S100000x768, .f32⟩
  | 15 => ⟨S100000x768, .f32⟩
  | 16 => ⟨S_, .f32⟩
  | 17 => ⟨S1024x768, .f32⟩
  | 18 => ⟨S100000x1, .i32⟩
  | 19 => ⟨S1024x768, .f32⟩
  | 20 => ⟨S_, .f32⟩
  | 21 => ⟨S100000, .f32⟩
  | 22 => ⟨S_, .f32⟩
  | 23 => ⟨S1024, .f32⟩
  | 24 => ⟨S100000x1, .i32⟩
  | 25 => ⟨S1024, .f32⟩
  | 26 => ⟨S_, .f32⟩
  | 27 => ⟨S1024, .f32⟩
  | 28 => ⟨S1024, .f32⟩
  | 29 => ⟨S1024x1, .f32⟩
  | 30 => ⟨S1024x768, .f32⟩
  | 31 => ⟨S1024x768, .f32⟩
  | 32 => ⟨S1024x78, .f32⟩
  | 33 => ⟨S1x78, .f32⟩
  | 34 => ⟨S1024x78, .f32⟩
  | 35 => ⟨S1024x78, .f32⟩
  | _ => ⟨S100000x400, .f32⟩

abbrev hbmTy (i : Nat) : BufTy := match i / 128 with
  | 0 => hbmTy0_0 i
  | 1 => hbmTy0_1 i
  | _ => ⟨S100000x400, .f32⟩

abbrev bufTy : (tb : Table) → Fin (tcTables nBuf tb) → BufTy
  | .hbm, ⟨i, _⟩ => hbmTy i
  | _, _ => ⟨S100000x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_call1_v0 : Ref sig .tc := ⟨.hbm, 43, rfl⟩
abbrev main_call1_v1 : Ref sig .tc := ⟨.hbm, 44, rfl⟩
abbrev main_v24 : Ref sig .tc := ⟨.hbm, 45, rfl⟩
abbrev main_c : Ref sig .tc := ⟨.hbm, 46, rfl⟩
abbrev main_v25 : Ref sig .tc := ⟨.hbm, 47, rfl⟩
abbrev main_v26 : Ref sig .tc := ⟨.hbm, 48, rfl⟩
abbrev main_c_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_6 : Ref sig .tc := ⟨.hbm, 65, rfl⟩
abbrev main_v40 : Ref sig .tc := ⟨.hbm, 66, rfl⟩
abbrev main_v41 : Ref sig .tc := ⟨.hbm, 67, rfl⟩
abbrev main_c_7 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_cst_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_call2_v0 : Ref sig .tc := ⟨.hbm, 103, rfl⟩
abbrev main_call2_v1 : Ref sig .tc := ⟨.hbm, 104, rfl⟩
abbrev main_v71 : Ref sig .tc := ⟨.hbm, 105, rfl⟩
abbrev main_c_13 : Ref sig .tc := ⟨.hbm, 106, rfl⟩
abbrev main_v72 : Ref sig .tc := ⟨.hbm, 107, rfl⟩
abbrev main_v73 : Ref sig .tc := ⟨.hbm, 108, rfl⟩
abbrev main_c_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_15 : Ref sig .tc := ⟨.hbm, 115, rfl⟩
abbrev main_v79 : Ref sig .tc := ⟨.hbm, 116, rfl⟩
abbrev main_v80 : Ref sig .tc := ⟨.hbm, 117, rfl⟩
abbrev main_c_16 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_17 : Ref sig .tc := ⟨.hbm, 125, rfl⟩
abbrev main_v87 : Ref sig .tc := ⟨.hbm, 126, rfl⟩
abbrev main_v88 : Ref sig .tc := ⟨.hbm, 127, rfl⟩
abbrev main_c_18 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_19 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_20 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_21 : Ref sig .tc := ⟨.hbm, 148, rfl⟩
abbrev main_v106 : Ref sig .tc := ⟨.hbm, 149, rfl⟩
abbrev main_cst_22 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_23 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩

abbrev nD : Nat := 1
abbrev τ : Topo := Topo.v7x

variable {F : FTy → Type} [FloatOps F]

class Facts₀ : Prop where
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  bcast_S_S100000x768 : S_.BroadcastsInDim S100000x768 (![] : Fin 0 → Fin S100000x768.rank)
  slices_S2x100000_S1x100000_0_0 : S2x100000.Slices ![0, 0] S1x100000
  shapeCasts_S1x100000_S100000 : S1x100000.ShapeCasts S100000
  concatenates_S100000_S100000_S200000_d0 : Shape.Concatenates [S100000, S100000] S200000 0
  slices_S2x100000_S1x100000_1_0 : S2x100000.Slices ![1, 0] S1x100000
  bcast_S_S200000 : S_.BroadcastsInDim S200000 (![] : Fin 0 → Fin S200000.rank)
  bcast_S_S100000 : S_.BroadcastsInDim S100000 (![] : Fin 0 → Fin S100000.rank)
  bcast_S200000_S200000x1_0 : S200000.BroadcastsInDim S200000x1 (![0] : Fin 1 → Fin S200000x1.rank)
  bcast_S200000x1_S200000x768_0_1 : S200000x1.BroadcastsInDim S200000x768 (![0, 1] : Fin 2 → Fin S200000x768.rank)
  bcast_S_S1024x768 : S_.BroadcastsInDim S1024x768 (![] : Fin 0 → Fin S1024x768.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x768_0_1 : S1024x1.BroadcastsInDim S1024x768 (![0, 1] : Fin 2 → Fin S1024x768.rank)
  bcast_S78_S1x78_1 : S78.BroadcastsInDim S1x78 (![1] : Fin 1 → Fin S1x78.rank)
  bcast_S1x78_S1024x78_0_1 : S1x78.BroadcastsInDim S1024x78 (![0, 1] : Fin 2 → Fin S1024x78.rank)
  dot_S100000x400_S400x768_S100000x768_1_0_0_1_n_n_wf : DotDims.WF S100000x400 S400x768 S100000x768 [1] [0] [0] [1] [] []
  dot_S100000x768_S768x768_S100000x768_1_0_0_1_n_n_wf : DotDims.WF S100000x768 S768x768 S100000x768 [1] [0] [0] [1] [] []
  scatter_S100000_S200000x1_S200000_n_0_0_1_wf : ScatterDims.WF S100000 S200000x1 S200000 [] [0] [0] 1
  gather_S100000_S200000x1_S200000_n_0_n_n_0_1_1_wf : GatherDims.WF S100000 S200000x1 S200000 [] [0] [] [0] [] 1 ![1]
  gather_S100000x768_S200000x1_S200000x768_1_0_n_n_0_1_1768_wf : GatherDims.WF S100000x768 S200000x1 S200000x768 [1] [0] [] [0] [] 1 ![1, 768]
  scatter_S100000x768_S200000x1_S200000x768_1_0_0_1_wf : ScatterDims.WF S100000x768 S200000x1 S200000x768 [1] [0] [0] 1
  scatter_S1024x768_S100000x1_S100000x768_1_0_0_1_wf : ScatterDims.WF S1024x768 S100000x1 S100000x768 [1] [0] [0] 1
  scatter_S1024_S100000x1_S100000_n_0_0_1_wf : ScatterDims.WF S1024 S100000x1 S100000 [] [0] [0] 1
  dot_S1024x768_S768x78_S1024x78_1_0_0_1_n_n_wf : DotDims.WF S1024x768 S768x78 S1024x78 [1] [0] [0] [1] [] []

variable [Facts₀]

def dot_S100000x400_S400x768_S100000x768_1_0_0_1_n_n : DotDims S100000x400 S400x768 S100000x768 where
  lhsContracting := [1]
  rhsContracting := [0]
  lhsNonContracting := [0]
  rhsNonContracting := [1]
  lhsBatch := []
  rhsBatch := []
  wf := dot_S100000x400_S400x768_S100000x768_1_0_0_1_n_n_wf
def dot_S100000x768_S768x768_S100000x768_1_0_0_1_n_n : DotDims S100000x768 S768x768 S100000x768 where
  lhsContracting := [1]
  rhsContracting := [0]
  lhsNonContracting := [0]
  rhsNonContracting := [1]
  lhsBatch := []
  rhsBatch := []
  wf := dot_S100000x768_S768x768_S100000x768_1_0_0_1_n_n_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def gather_S100000_S200000x1_S200000_n_0_n_n_0_1_1 : GatherDims S100000 S200000x1 S200000 where
  offsetDims := []
  collapsedSliceDims := [0]
  operandBatchingDims := []
  startIndicesBatchingDims := []
  startIndexMap := [0]
  indexVectorDim := 1
  sliceSizes := ![1]
  wf := gather_S100000_S200000x1_S200000_n_0_n_n_0_1_1_wf
def gather_S100000x768_S200000x1_S200000x768_1_0_n_n_0_1_1768 : GatherDims S100000x768 S200000x1 S200000x768 where
  offsetDims := [1]
  collapsedSliceDims := [0]
  operandBatchingDims := []
  startIndicesBatchingDims := []
  startIndexMap := [0]
  indexVectorDim := 1
  sliceSizes := ![1, 768]
  wf := gather_S100000x768_S200000x1_S200000x768_1_0_n_n_0_1_1768_wf
def scatter_S100000x768_S200000x1_S200000x768_1_0_0_1 : ScatterDims S100000x768 S200000x1 S200000x768 where
  updateWindowDims := [1]
  insertedWindowDims := [0]
  scatterDimsToOperandDims := [0]
  indexVectorDim := 1
  wf := scatter_S100000x768_S200000x1_S200000x768_1_0_0_1_wf
def scatter_S1024x768_S100000x1_S100000x768_1_0_0_1 : ScatterDims S1024x768 S100000x1 S100000x768 where
  updateWindowDims := [1]
  insertedWindowDims := [0]
  scatterDimsToOperandDims := [0]
  indexVectorDim := 1
  wf := scatter_S1024x768_S100000x1_S100000x768_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x768_S768x78_S1024x78_1_0_0_1_n_n : DotDims S1024x768 S768x78 S1024x78 where
  lhsContracting := [1]
  rhsContracting := [0]
  lhsNonContracting := [0]
  rhsNonContracting := [1]
  lhsBatch := []
  rhsBatch := []
  wf := dot_S1024x768_S768x78_S1024x78_1_0_0_1_n_n_wf

class Facts : Prop extends Facts₀ where

variable [Facts]
-- ==== Proof.KernelRun.lean ====
/-
  The idealized kernel's run with its two results named.

  The program is three kernel regions among stretches of host operations.  Its run from the launch memory ends with
  every buffer that outlives a region at the contents obtained by folding the stretches and the regions' write-backs
  through the launch memory, in program order; the two results (the class scores and the node features after the
  second graph convolution) are two such buffers, and the thirteen arguments are thirteen more, each read back through
  the fold to the launch memory.  The statement below is the generated frame's with the two results kept.
-/
import proofs.«128012_j34617436405985_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from the launch memory terminates, nothing faulting, with the two results at the
    last boundary's contents and the arguments as launched. -/
theorem run_results : θ_run defs (onTc (τ := τ) (main (F := F))) ⟨m, fun _ => 0, ρ⟩ (fun r => ∀ c : Dev nD,
      r.2.mem ((c.tc : Thread nD τ).loc main_v84) = W8 m ρ c (Proc.devRef .tc main_v84)
      ∧ r.2.mem ((c.tc : Thread nD τ).loc main_v70) = W8 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v84 (by decide)),
       h c _ (mem_uc main_v70 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Whole

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«128012_j34617436405985_2_alg».proof.Proof.LibPlainDot
import proofs.«128012_j34617436405985_2_alg».proof.Proof.LibBiasRow
import proofs.«128012_j34617436405985_2_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibRowGather.lean ====
/-
  ROW GATHER READ AT AN INDEX. A gather of whole rows of a matrix `x : [N, D]` at a column of start indices
  `idx : [E, 1]` (offset axis 1, collapsed slice axis 0, start index map [0], index vector axis 1, slice sizes
  [1, D]): result element `(e, f)` is `x` at row `idx[e, 0]`, read as a signed integer and clamped into
  `[0, N - 1]`, and column `f`.
-/
import Idealize.ShloMosaic.Lib.ValueIdx
import Idealize.ShloMosaic.PureOps.ShapeOps

namespace Cert.LibRowGather

open Idealize.ShloMosaic Idealize.ShloMosaic.ValueIdx

/-- The row gather at `(e, f)`: the operand at row `min (idx[e, 0] read signed, negative as 0) (N - 1)` and column `f`.
    On axis 0 the operand index is the clamped start (the slice has one row, the axis is collapsed, so no offset); on
    axis 1 the start is 0 (the axis is not in the start index map) and the offset coordinate is `f`. -/
theorem rowGather_apply {α : Type} {N D E w : ℕ} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (f : Fin D) :
    Host.gather d x idx (ix2 e f)
      = x (ix2 ⟨min (idx (ix2 e (0 : Fin 1))).toInt.toNat (N - 1), by omega⟩ f) := by
  obtain ⟨od, cs, ob, sb, sim, ivd, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix2 e f) idx 0 + GatherDims.batchCoord _ (ix2 e f) 0 + GatherDims.offCoord _ (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, D], wf⟩ :
          GatherDims ⟨2, ![N, D]⟩ ⟨2, ![E, 1]⟩ ⟨2, ![E, D]⟩) (ix2 e f)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e f) idx 1 + GatherDims.batchCoord _ (ix2 e f) 1 + GatherDims.offCoord _ (ix2 e f) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨(show (1 : Fin 2) ∉ [0] by decide), List.not_mem_nil⟩)]
    simp only [Nat.zero_add]
    rfl

end Cert.LibRowGather
-- ==== Proof.LibVecGather.lean ====
/-
  A gather of single elements of a vector [N] at an [E, 1] column of start indices, read at an index.

  What `x[idx]` of a flat array at a flat integer array lowers to once the indices are given a trailing unit axis: no
  offset axes, the operand's one axis collapsed, the start index map [0], the index vector axis 1, slices of one element.
  Element e of the result is the operand at the start index idx[e, 0] read signed and clamped into [0, N - 1], as every
  gather clamps its start indices.  General in the extents, the element type and the index width.
-/
import Idealize.ShloMosaic.Lib.ValueIdx

namespace Cert.LibVecGather

open Idealize.ShloMosaic Idealize.ShloMosaic.ValueIdx

/-- The element gather at `e`: the operand at `min (idx[e, 0] read signed, negative as 0) (N - 1)`. -/
theorem vecGather_apply {α : Type} {N E w : ℕ} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e)
      = x (ix1 ⟨min (idx (ix2 e (0 : Fin 1))).toInt.toNat (N - 1), by omega⟩) := by
  obtain ⟨od, cs, ob, sb, sim, ivd, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [0], [], [], [0], 1, ![1], wf⟩ :
          GatherDims ⟨1, ![N]⟩ ⟨2, ![E, 1]⟩ ⟨1, ![E]⟩) (ix1 e)
        ⟨List.idxOf (0 : Fin 1) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.LibVecGather
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.LibEdgeMessages.lean ====
/-
  The edge messages of a normalised graph convolution, scaled at the source before the gather or after it.

  For node features hw : [N, D], a degree factor dv : [N] and two columns of node indices (sources and targets of E
  edges), the message of edge e at feature f is hw(r, f) * dv(r) * dv(c), r and c the edge's clamped source and target.
  Scaling the rows of hw by dv first and gathering the scaled rows gives (hw(r, f) * dv(r)) * dv(c); gathering hw and
  multiplying by the product of the two gathered factors gives hw(r, f) * (dv(r) * dv(c)).  Multiplication of extended
  reals is associative, so the two message arrays are equal, infinities included.
-/
import Idealize.ShloMosaic.PureOps.Ideal
import Idealize.ShloMosaic.Lib.ValueIdx
import Idealize.ShloMosaic.Lib.Pipeline.Value
import proofs.«128012_j34617436405985_2_alg».proof.Proof.LibRowGather
import proofs.«128012_j34617436405985_2_alg».proof.Proof.LibVecGather
import proofs.«128012_j34617436405985_2_alg».proof.Proof.LibBroadcastInDim

noncomputable section

namespace Cert.LibEdgeMessages

open Idealize.ShloMosaic Idealize.ShloMosaic.ValueIdx

/-- Rows scaled before the gather against factors multiplied after it. -/
theorem message_assoc {N D E w : ℕ} (hN : 0 < N)
    (g2 : GatherDims ⟨2, ![N, D]⟩ ⟨2, ![E, 1]⟩ ⟨2, ![E, D]⟩)
    (a1 : g2.offsetDims = [1]) (a2 : g2.collapsedSliceDims = [0]) (a3 : g2.operandBatchingDims = [])
    (a4 : g2.startIndicesBatchingDims = []) (a5 : g2.startIndexMap = [0]) (a6 : g2.indexVectorDim = 1)
    (a7 : g2.sliceSizes = ![1, D])
    (g1 : GatherDims ⟨1, ![N]⟩ ⟨2, ![E, 1]⟩ ⟨1, ![E]⟩)
    (b1 : g1.offsetDims = []) (b2 : g1.collapsedSliceDims = [0]) (b3 : g1.operandBatchingDims = [])
    (b4 : g1.startIndicesBatchingDims = []) (b5 : g1.startIndexMap = [0]) (b6 : g1.indexVectorDim = 1)
    (b7 : g1.sliceSizes = ![1])
    (hc : (⟨1, ![E]⟩ : Shape).BroadcastsInDim ⟨2, ![E, 1]⟩ ![0])
    (hm : (⟨2, ![E, 1]⟩ : Shape).BroadcastsInDim ⟨2, ![E, D]⟩ ![0, 1])
    (hw : FVec Ideal ⟨2, ![N, D]⟩ .f32) (dv : FVec Ideal ⟨1, ![N]⟩ .f32) (rowN colN : IVec ⟨2, ![E, 1]⟩ w) :
    mulf (Host.gather g2 (fun i => hw i * dv (ix1 (i 0)) : FVec Ideal ⟨2, ![N, D]⟩ .f32) rowN)
        (broadcastInDim ⟨2, ![E, D]⟩ ![0, 1] hm (broadcastInDim ⟨2, ![E, 1]⟩ ![0] hc (Host.gather g1 dv colN)))
      = mulf (Host.gather g2 hw rowN)
        (broadcastInDim ⟨2, ![E, D]⟩ ![0, 1] hm (broadcastInDim ⟨2, ![E, 1]⟩ ![0] hc
          (mulf (Host.gather g1 dv rowN) (Host.gather g1 dv colN)))) := by
  funext i
  obtain ⟨e, f, rfl⟩ : ∃ (e : Fin E) (f : Fin D), i = ix2 e f := ⟨i 0, i 1, eq_ix2 i⟩
  show Host.gather g2 (fun i => hw i * dv (ix1 (i 0)) : FVec Ideal ⟨2, ![N, D]⟩ .f32) rowN (ix2 e f)
        * broadcastInDim ⟨2, ![E, D]⟩ ![0, 1] hm (broadcastInDim ⟨2, ![E, 1]⟩ ![0] hc (Host.gather g1 dv colN)) (ix2 e f)
      = Host.gather g2 hw rowN (ix2 e f)
        * broadcastInDim ⟨2, ![E, D]⟩ ![0, 1] hm (broadcastInDim ⟨2, ![E, 1]⟩ ![0] hc
          (mulf (Host.gather g1 dv rowN) (Host.gather g1 dv colN))) (ix2 e f)
  rw [Cert.LibRowGather.rowGather_apply hN g2 a1 a2 a3 a4 a5 a6 a7 _ rowN e f,
    Cert.LibRowGather.rowGather_apply hN g2 a1 a2 a3 a4 a5 a6 a7 hw rowN e f,
    Cert.LibBroadcastInDim.col_mat_apply hm _ e f, Cert.LibBroadcastInDim.col_mat_apply hm _ e f,
    Cert.LibBroadcastInDim.vec_col_apply hc _ e 0, Cert.LibBroadcastInDim.vec_col_apply hc _ e 0]
  show _ = _ * (Host.gather g1 dv rowN (ix1 e) * Host.gather g1 dv colN (ix1 e))
  rw [Cert.LibVecGather.vecGather_apply hN g1 b1 b2 b3 b4 b5 b6 b7 dv rowN e]
  exact mul_assoc _ _ _

end Cert.LibEdgeMessages

end
-- ==== Proof.RefStages.lean ====
/-
  The reference's dense stages as matrix functions.

  The reference computes the encoder (a matrix product, a bias vector added to every row, the floor at zero, a second
  product and bias), then one product per graph convolution, and at the end the classifier's product and bias.  On the
  extended reals each contraction is the matrix product (entry (p, o) the sum over j of a(p, j) * w(j, o)), a bias
  vector placed as a row and spread over the rows and added is the row added to every row, and the maximum against the
  spread zero word is the floor at zero.  Nothing is distributed or cancelled.
-/
import proofs.«128012_j34617436405985_2_alg».proof.Proof.RefReadP
import proofs.«128012_j34617436405985_2_alg».proof.Proof.LibRowStages

noncomputable section

namespace Cert.ReferenceIdeal.Stages

open Idealize.ShloMosaic Idealize.ShloMosaic.ValueIdx Cert.LibRowStages
open Cert.ReferenceIdeal Cert.ReferenceIdeal.ReadP

/-- The features entering the first graph convolution's product: the two-layer encoder. -/
def encoded (x0 : Mat 100000 400) (w1 : Mat 400 768) (b1 : Mat 1 768) (w2 : Mat 768 768) (b2 : Mat 1 768) : Mat 100000 768 :=
  addRow (mm (relu (addRow (mm x0 w1) b1)) w2) b2

/-- The first convolution's product is the matrix product of the encoded features with its weights. -/
theorem hw1_eq (hc : (⟨1, ![768]⟩ : Shape).ShapeCasts ⟨2, ![1, 768]⟩)
    (x0 : FVec Ideal S100000x400 .f32) (x3 : FVec Ideal S400x768 .f32) (x4 : FVec Ideal S768 .f32)
    (x5 : FVec Ideal S768x768 .f32) (x6 : FVec Ideal S768 .f32) (x7 : FVec Ideal S768x768 .f32) :
    val_main_v9 (F := Ideal) x0 x3 x4 x5 x6 x7
      = mm (encoded x0 x3 (shapeCast ⟨2, ![1, 768]⟩ x4 hc) x5 (shapeCast ⟨2, ![1, 768]⟩ x6 hc)) x7 := by
  unfold val_main_v9 val_main_v8 val_main_v7 val_main_v6 val_main_v5 val_main_v4 val_main_call0_v0 val_main_call0_cst
    val_main_v3 val_main_v2 val_main_v1 val_main_v0 encoded
  rw [dotGeneral_eq_mm _ rfl rfl rfl rfl rfl rfl, dotGeneral_eq_mm _ rfl rfl rfl rfl rfl rfl,
    dotGeneral_eq_mm _ rfl rfl rfl rfl rfl rfl, addf_hostBias_eq_addRow _ _ hc, addf_hostBias_eq_addRow _ _ hc,
    maximumf_hostZero_eq_relu]

/-- The second convolution's product is the matrix product of the first convolution's output with its weights. -/
theorem hw2_eq (x0 : FVec Ideal S100000x400 .f32) (x1 : IVec S2x100000 32) (x3 : FVec Ideal S400x768 .f32)
    (x4 : FVec Ideal S768 .f32) (x5 : FVec Ideal S768x768 .f32) (x6 : FVec Ideal S768 .f32)
    (x7 : FVec Ideal S768x768 .f32) (x8 : FVec Ideal S768 .f32) (x9 : FVec Ideal S768x768 .f32) :
    val_main_v56 (F := Ideal) x0 x1 x3 x4 x5 x6 x7 x8 x9 = mm (val_main_v55 (F := Ideal) x0 x1 x3 x4 x5 x6 x7 x8) x9 := by
  unfold val_main_v56
  rw [dotGeneral_eq_mm _ rfl rfl rfl rfl rfl rfl]

/-- The class scores are the pooled features' product with the classifier's weights plus its bias row. -/
theorem logits_eq (hc : (⟨1, ![78]⟩ : Shape).ShapeCasts ⟨2, ![1, 78]⟩)
    (x0 : FVec Ideal S100000x400 .f32) (x1 : IVec S2x100000 32) (x2 : IVec S100000 32) (x3 : FVec Ideal S400x768 .f32)
    (x4 : FVec Ideal S768 .f32) (x5 : FVec Ideal S768x768 .f32) (x6 : FVec Ideal S768 .f32)
    (x7 : FVec Ideal S768x768 .f32) (x8 : FVec Ideal S768 .f32) (x9 : FVec Ideal S768x768 .f32)
    (x10 : FVec Ideal S768 .f32) (x11 : FVec Ideal S768x78 .f32) (x12 : FVec Ideal S78 .f32) :
    val_main_v118 (F := Ideal) x0 x1 x2 x3 x4 x5 x6 x7 x8 x9 x10 x11 x12
      = addRow (mm (val_main_v114 (F := Ideal) x0 x1 x2 x3 x4 x5 x6 x7 x8 x9 x10) x11) (shapeCast ⟨2, ![1, 78]⟩ x12 hc) := by
  unfold val_main_v118 val_main_v117 val_main_v116 val_main_v115
  rw [dotGeneral_eq_mm _ rfl rfl rfl rfl rfl rfl, addf_hostBias_eq_addRow _ _ hc]

end Cert.ReferenceIdeal.Stages

end
-- ==== Proof.LibConcatCongr.lean ====
/-
  A TWO-PIECE CONCATENATION RESPECTS EQUALITY OF ITS PIECES, in the form of a congruence rule for the simplifier. Each
  piece of a concatenation is the second component of a pair whose first component is the piece's shape, so a
  rewriting pass does not enter it on its own; with this rule it does, and a chain of host operations that ends in a
  concatenation is read in one pass.
-/
import Idealize.ShloMosaic.PureOps.ShapeOps

namespace Cert.LibConcatCongr

open Idealize.ShloMosaic

/-- Two pieces joined along an axis: equal pieces give equal joins. (Not tagged here: a module that wants the
    simplifier to use it says so locally.) -/
theorem concatenate_pair_congr {α : Type} {t s₁ s₂ : Shape} (a : Fin t.rank) (x₁ x₁' : s₁.Idx → α)
    (x₂ x₂' : s₂.Idx → α) (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

end Cert.LibConcatCongr
-- ==== Proof.KernelEntry.lean ====
import proofs.«128012_j34617436405985_2_alg».proof.Proof.Gen.KernelIdeal.Frame
import proofs.«128012_j34617436405985_2_alg».proof.Proof.RefReadP
import Idealize.ShloMosaic.Lib.StableHlo.Run
import proofs.«128012_j34617436405985_2_alg».proof.Proof.LibRowStages
import proofs.«128012_j34617436405985_2_alg».proof.Proof.LibConcatCongr
set_option maxRecDepth 16384
set_option maxHeartbeats 4000000

noncomputable section

namespace Cert.KernelIdeal.Whole

open Idealize.ShloMosaic Idealize.ShloMosaic.TcCoe Idealize.ShloMosaic.Tactic Idealize.ShloMosaic.StableHlo
open Idealize.SL.Sem
open Cert.KernelIdeal Cert.KernelIdeal.Gen
open Cert.ReferenceIdeal.ReadP

variable {F : FTy → Type} [FloatOps F]
variable (m : (ℓ : Loc nD τ sig) → Buf (Elt F) ℓ) (ρ : Dev nD → PrngReg) (c : Dev nD)

open Cert.LibRowStages

-- the simplifier enters the two pieces of a concatenation
attribute [local congr] Cert.LibConcatCongr.concatenate_pair_congr

/-! ## The contents the first region is entered with

Before the first region the host builds the graph structure from the edge list (sources and targets with one self loop
per node appended, the in-degrees by a scatter of ones, their inverse square roots where positive and zero elsewhere),
reshapes the degree factors to a column and the two encoder biases to rows, and narrows the five weight matrices to a
shorter float format.  Each of these buffers is read off the fold of the
host operations over the launch memory; the graph structure is spelt exactly as the reference spells it. -/

/-- The edge sources with the self loops appended. -/
theorem W3_v3 : W3 m ρ c (Proc.devRef .tc main_v3) = val_main_v13 (F := F) (m ((c.tc : Thread nD τ).loc main_arg1)) := by
  show StableHlo.after hostOps0_2 (StableHlo.after hostOps0_1 (StableHlo.after hostOps0 (W0 m ρ c))) (Proc.devRef .tc main_v3) = _
  after_results_simp
  unfold val_main_v13 val_main_v12 val_main_v11 val_main_v10
  rfl

/-- The edge targets with the self loops appended. -/
theorem W3_v6 : W3 m ρ c (Proc.devRef .tc main_v6) = val_main_v16 (F := F) (m ((c.tc : Thread nD τ).loc main_arg1)) := by
  show StableHlo.after hostOps0_2 (StableHlo.after hostOps0_1 (StableHlo.after hostOps0 (W0 m ρ c))) (Proc.devRef .tc main_v6) = _
  after_results_simp
  unfold val_main_v16 val_main_v15 val_main_v14 val_main_v10
  rfl

/-- The degree factors. -/
theorem W3_v14 : W3 m ρ c (Proc.devRef .tc main_v14) = val_main_v24 (F := F) (m ((c.tc : Thread nD τ).loc main_arg1)) := by
  show StableHlo.after hostOps0_2 (StableHlo.after hostOps0_1 (StableHlo.after hostOps0 (W0 m ρ c))) (Proc.devRef .tc main_v14) = _
  after_results_simp <;> rfl

/-- The degree factors as a column. -/
theorem W3_v15 : W3 m ρ c (Proc.devRef .tc main_v15) = shapeCast S100000x1 (val_main_v24 (F := F) (m ((c.tc : Thread nD τ).loc main_arg1))) shapeCasts_S100000_S100000x1 := by
  show StableHlo.after hostOps0_2 (StableHlo.after hostOps0_1 (StableHlo.after hostOps0 (W0 m ρ c))) (Proc.devRef .tc main_v15) = _
  after_results_simp <;> rfl

/-- The five weight matrices narrowed to the shorter float format. -/
theorem W3_v16 : W3 m ρ c (Proc.devRef .tc main_v16) = truncf .bf16 (m ((c.tc : Thread nD τ).loc main_arg3)) bitsLt_bf16_f32 := by
  show StableHlo.after hostOps0_2 (StableHlo.after hostOps0_1 (StableHlo.after hostOps0 (W0 m ρ c))) (Proc.devRef .tc main_v16) = _
  after_results_simp <;> rfl

theorem W3_v17 : W3 m ρ c (Proc.devRef .tc main_v17) = truncf .bf16 (m ((c.tc : Thread nD τ).loc main_arg5)) bitsLt_bf16_f32 := by
  show StableHlo.after hostOps0_2 (StableHlo.after hostOps0_1 (StableHlo.after hostOps0 (W0 m ρ c))) (Proc.devRef .tc main_v17) = _
  after_results_simp <;> rfl

theorem W3_v18 : W3 m ρ c (Proc.devRef .tc main_v18) = truncf .bf16 (m ((c.tc : Thread nD τ).loc main_arg7)) bitsLt_bf16_f32 := by
  show StableHlo.after hostOps0_2 (StableHlo.after hostOps0_1 (StableHlo.after hostOps0 (W0 m ρ c))) (Proc.devRef .tc main_v18) = _
  after_results_simp <;> rfl

theorem W3_v19 : W3 m ρ c (Proc.devRef .tc main_v19) = truncf .bf16 (m ((c.tc : Thread nD τ).loc main_arg9)) bitsLt_bf16_f32 := by
  show StableHlo.after hostOps0_2 (StableHlo.after hostOps0_1 (StableHlo.after hostOps0 (W0 m ρ c))) (Proc.devRef .tc main_v19) = _
  after_results_simp <;> rfl

theorem W3_v20 : W3 m ρ c (Proc.devRef .tc main_v20) = truncf .bf16 (m ((c.tc : Thread nD τ).loc main_arg11)) bitsLt_bf16_f32 := by
  show StableHlo.after hostOps0_2 (StableHlo.after hostOps0_1 (StableHlo.after hostOps0 (W0 m ρ c))) (Proc.devRef .tc main_v20) = _
  after_results_simp <;> rfl

/-- The two encoder biases as rows. -/
theorem W3_v21 : W3 m ρ c (Proc.devRef .tc main_v21) = shapeCast S1x768 (m ((c.tc : Thread nD τ).loc main_arg4)) shapeCasts_S768_S1x768 := by
  show StableHlo.after hostOps0_2 (StableHlo.after hostOps0_1 (StableHlo.after hostOps0 (W0 m ρ c))) (Proc.devRef .tc main_v21) = _
  after_results_simp <;> rfl

theorem W3_v22 : W3 m ρ c (Proc.devRef .tc main_v22) = shapeCast S1x768 (m ((c.tc : Thread nD τ).loc main_arg6)) shapeCasts_S768_S1x768 := by
  show StableHlo.after hostOps0_2 (StableHlo.after hostOps0_1 (StableHlo.after hostOps0 (W0 m ρ c))) (Proc.devRef .tc main_v22) = _
  after_results_simp <;> rfl

/-- The arguments the later stretches read are untouched. -/
theorem W3_arg0 : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results_simp <;> rfl

theorem W3_arg2 : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results_simp <;> rfl

theorem W3_arg8 : W3 m ρ c (Proc.devRef .tc main_arg8) = (m ((c.tc : Thread nD τ).loc main_arg8)) := by
  show StableHlo.after hostOps0_2 (StableHlo.after hostOps0_1 (StableHlo.after hostOps0 (W0 m ρ c))) (Proc.devRef .tc main_arg8) = _
  after_results_simp <;> rfl

theorem W3_arg10 : W3 m ρ c (Proc.devRef .tc main_arg10) = (m ((c.tc : Thread nD τ).loc main_arg10)) := by
  show StableHlo.after hostOps0_2 (StableHlo.after hostOps0_1 (StableHlo.after hostOps0 (W0 m ρ c))) (Proc.devRef .tc main_arg10) = _
  after_results_simp <;> rfl

theorem W3_arg12 : W3 m ρ c (Proc.devRef .tc main_arg12) = (m ((c.tc : Thread nD τ).loc main_arg12)) := by
  show StableHlo.after hostOps0_2 (StableHlo.after hostOps0_1 (StableHlo.after hostOps0 (W0 m ρ c))) (Proc.devRef .tc main_arg12) = _
  after_results_simp <;> rfl

end Cert.KernelIdeal.Whole

end
-- ==== Proof.LayerSpec.lean ====
/-
  The two row-scaled layers of the network, as whole-array functions on extended reals.

  A row of the encoder's output is the row of  ((relu (X W1 + b1)) W2 + b2) Wg  scaled by that row's entry of the
  column dv; a row of the scaled product is the row of  H W  scaled the same way.  Every stage acts on one row at a
  time, so a block of rows of either is the same function of the same rows of the inputs.
-/
import proofs.«128012_j34617436405985_2_alg».proof.Proof.LibRowStages

noncomputable section

namespace Cert.LayerSpec

open Idealize.ShloMosaic Idealize.ShloMosaic.ValueIdx Cert.LibRowStages

/-- The encoder followed by the first graph weight, each row scaled by its entry of the column `dv`:
    entry (p, o) is  (((relu (X W1 + b1)) W2 + b2) Wg)(p, o) * dv(p, 0). -/
def enc (X : Mat 100000 400) (W1 : Mat 400 768) (b1 : Mat 1 768) (W2 : Mat 768 768) (b2 : Mat 1 768)
    (Wg : Mat 768 768) (dv : Mat 100000 1) : Mat 100000 768 :=
  fun i => mm (addRow (mm (relu (addRow (mm X W1) b1)) W2) b2) Wg i * dv (ix2 (i 0) (0 : Fin 1))

/-- A matrix product with each row scaled by its entry of the column `dv`:
    entry (p, o) is  (H W)(p, o) * dv(p, 0). -/
def scaled (H : Mat 100000 768) (W : Mat 768 768) (dv : Mat 100000 1) : Mat 100000 768 :=
  fun i => mm H W i * dv (ix2 (i 0) (0 : Fin 1))

end Cert.LayerSpec

end
-- ==== Proof.LibRowBlocks.lean ====
/-
  Row-wise stages on a block of rows, entry by entry.

  The matrix product, the bias row added to every row and the floor at zero (`mm`, `addRow`, `relu` on matrices of
  extended reals) each compute an entry of their result from one row of the matrix operand.  So an entry of a stage
  applied to a block of rows is the entry of the stage applied to the whole matrix, at the row of the whole matrix the
  block's row is: for the product when the two rows agree entry by entry and the weight columns agree, for the bias row
  when the two matrix entries agree and the two bias entries of that column agree, for the floor when the entries agree.
  Nothing is distributed or cancelled, so these hold at the infinities.  They are what a kernel that walks a matrix in
  blocks of rows needs at a grid point: the block's entry on the left, the whole array's on the right.
-/
import proofs.«128012_j34617436405985_2_alg».proof.Proof.LibRowStages

noncomputable section

open scoped BigOperators

namespace Cert.LibRowBlocks

open Idealize.ShloMosaic Idealize.ShloMosaic.ValueIdx Cert.LibRowStages

/-- Two index pairs with equal coordinates are equal. -/
theorem ix2_congr {a b : ℕ} {p p' : Fin a} {q q' : Fin b} (hp : p = p') (hq : q = q') : ix2 p q = ix2 p' q' := by
  subst hp hq; rfl

/-- An entry of a product of blocks is the entry of the product of the whole matrices, when the block's row is the
    matrix's row and the weight columns agree. -/
theorem mm_block {n k d N : ℕ} (xb : Mat n k) (wb : Mat k d) (X : Mat N k) (W : Mat k d)
    (j : (⟨2, ![n, d]⟩ : Shape).Idx) (i : (⟨2, ![N, d]⟩ : Shape).Idx)
    (hx : ∀ q : Fin k, xb (ix2 (j 0) q) = X (ix2 (i 0) q)) (hw : ∀ q : Fin k, wb (ix2 q (j 1)) = W (ix2 q (i 1))) :
    mm xb wb j = mm X W i :=
  Finset.sum_congr rfl fun q _ => by rw [hx q, hw q]

/-- An entry of a block plus the bias row is the entry of the whole matrix plus the bias row, when the two matrix
    entries agree and so do the two bias entries of that column. -/
theorem addRow_entry {n k N : ℕ} (xb : Mat n k) (bb : Mat 1 k) (X : Mat N k) (B : Mat 1 k)
    (j : (⟨2, ![n, k]⟩ : Shape).Idx) (i : (⟨2, ![N, k]⟩ : Shape).Idx)
    (hx : xb j = X i) (hb : bb (ix2 (0 : Fin 1) (j 1)) = B (ix2 (0 : Fin 1) (i 1))) : addRow xb bb j = addRow X B i := by
  show xb j + bb (ix2 (0 : Fin 1) (j 1)) = X i + B (ix2 (0 : Fin 1) (i 1))
  rw [hx, hb]

/-- The floor at zero of equal entries. -/
theorem relu_entry {n k N : ℕ} (a : Mat n k) (A : Mat N k) (j : (⟨2, ![n, k]⟩ : Shape).Idx) (i : (⟨2, ![N, k]⟩ : Shape).Idx)
    (h : a j = A i) : relu a j = relu A i := by
  show max (a j) floor0 = max (A i) floor0
  rw [h]

end Cert.LibRowBlocks

end
-- ==== Proof.Region0Value.lean ====
/-
  The first kernel region as one function of its input arrays.

  The region walks the 100000 rows of X in 100 blocks of 1000 rows.  At block t the body runs rows
  1000 t .. 1000 t + 999 of X through the two dense layers (a product with W1, the bias row b1, the floor at zero, a
  product with W2, the bias row b2), multiplies by the graph weight Wg, and scales row p of the result by entry p of
  the same rows of the column dv; the weights and bias rows are whole at every block.  Every stage computes a row of
  its result from that row of its matrix operand alone, so what block t writes back is rows 1000 t .. 1000 t + 999 of
  the whole-array function; row r lies in block r / 1000, so the blocks cover the array and the array ends holding
  that function.  Narrowing a float format changes no extended real, and nothing is distributed or cancelled.
-/
import proofs.«128012_j34617436405985_2_alg».proof.Proof.Gen.KernelIdeal.Frame
import proofs.«128012_j34617436405985_2_alg».proof.Proof.LayerSpec
import proofs.«128012_j34617436405985_2_alg».proof.Proof.LibRowBlocks
import proofs.«128012_j34617436405985_2_alg».proof.Proof.LibKeepdims
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.LibRowStages Cert.LibRowBlocks Cert.LayerSpec

variable (V : (c : Dev nD) → (b : Ref sig .tc) → Buf (Elt Ideal) ((c : Thread nD τ).loc b))

/-- The zero offsets of a whole-buffer access, as a constant function. -/
theorem hz0 : (![0, 0] : Fin 2 → Nat) = fun _ => 0 := funext fun a => by fin_cases a <;> rfl

/-! ## The body on a block -/

/-- The two dense layers and the graph weight on a block of rows. -/
abbrev layers {n : ℕ} (x : Mat n 400) (W1 : Mat 400 768) (b1 : Mat 1 768) (W2 : Mat 768 768) (b2 : Mat 1 768)
    (Wg : Mat 768 768) : Mat n 768 :=
  mm (addRow (mm (relu (addRow (mm x W1) b1)) W2) b2) Wg

/-- The body's result on a block: the layers on the block of rows, each row scaled by the block's column entry of
    that row. -/
theorem pay0_eq (x0 : Vec Ideal S1000x400 .f32) (x1 : Vec Ideal S400x768 .bf16) (x2 : Vec Ideal S1x768 .f32)
    (x3 : Vec Ideal S768x768 .bf16) (x4 : Vec Ideal S1x768 .f32) (x5 : Vec Ideal S768x768 .bf16)
    (x6 : Vec Ideal S1000x1 .f32) :
    k0_pay1 (F := Ideal) x0 x1 x2 x3 x4 x5 x6
      = mulf (layers x0 x1 x2 x3 x4 x5 : FVec Ideal S1000x768 .f32)
          (broadcastTo S1000x768 x6 Gen.broadcasts_S1000x1_S1000x768) := by
  unfold k0_pay1
  dsimp only
  simp only [shapeCast_self]
  rw [matmul_eq_mm (φ₁ := .bf16) (φ₂ := .bf16) dot_S1000x400_S400x768_S1000x768_1_0_0_1_n_n rfl rfl rfl rfl rfl rfl none
      (truncf .bf16 x0 Gen.bitsLt_bf16_f32 : FVec Ideal S1000x400 .bf16) x1,
    addf_spread_eq_addRow Gen.broadcasts_S1x768_S1000x768 _ x2,
    maximumf_zero_eq_relu,
    matmul_eq_mm (φ₁ := .bf16) (φ₂ := .bf16) dot_S1000x768_S768x768_S1000x768_1_0_0_1_n_n rfl rfl rfl rfl rfl rfl none _ x3,
    addf_spread_eq_addRow Gen.broadcasts_S1x768_S1000x768 _ x4,
    matmul_eq_mm (φ₁ := .bf16) (φ₂ := .bf16) dot_S1000x768_S768x768_S1000x768_1_0_0_1_n_n rfl rfl rfl rfl rfl rfl none _ x5]
  rfl

/-- The body's result at entry (p, o) of the block. -/
theorem pay0_apply (x0 : Vec Ideal S1000x400 .f32) (x1 : Vec Ideal S400x768 .bf16) (x2 : Vec Ideal S1x768 .f32)
    (x3 : Vec Ideal S768x768 .bf16) (x4 : Vec Ideal S1x768 .f32) (x5 : Vec Ideal S768x768 .bf16)
    (x6 : Vec Ideal S1000x1 .f32) (p : Fin 1000) (o : Fin 768) :
    k0_pay1 (F := Ideal) x0 x1 x2 x3 x4 x5 x6 (ix2 p o)
      = layers x0 x1 x2 x3 x4 x5 (ix2 p o) * x6 (ix2 p (0 : Fin 1)) := by
  rw [pay0_eq]
  show layers x0 x1 x2 x3 x4 x5 (ix2 p o) * broadcastTo S1000x768 x6 Gen.broadcasts_S1000x1_S1000x768 (ix2 p o) = _
  rw [Cert.LibKeepdims.broadcastTo_a1_ab_apply x6 Gen.broadcasts_S1000x1_S1000x768 p o]

/-- An entry of the body's result on a block of rows is the entry of the whole-array function, when the block's row
    is row r of X and of dv and the blocks of weights and bias rows are the whole ones. -/
theorem point0 (x0 : Vec Ideal S1000x400 .f32) (x1 : Vec Ideal S400x768 .bf16) (x2 : Vec Ideal S1x768 .f32)
    (x3 : Vec Ideal S768x768 .bf16) (x4 : Vec Ideal S1x768 .f32) (x5 : Vec Ideal S768x768 .bf16)
    (x6 : Vec Ideal S1000x1 .f32)
    (X : Mat 100000 400) (W1 : Mat 400 768) (b1 : Mat 1 768) (W2 : Mat 768 768) (b2 : Mat 1 768) (Wg : Mat 768 768)
    (dv : Mat 100000 1) (j : S1000x768.Idx) (i : S100000x768.Idx)
    (hcol : (i 1).val = (j 1).val)
    (h0 : ∀ q : Fin 400, x0 (ix2 (j 0) q) = X (ix2 (i 0) q))
    (h1 : x1 = W1) (h2 : x2 = b1) (h3 : x3 = W2) (h4 : x4 = b2) (h5 : x5 = Wg)
    (h6 : x6 (ix2 (j 0) (0 : Fin 1)) = dv (ix2 (i 0) (0 : Fin 1))) :
    k0_pay1 (F := Ideal) x0 x1 x2 x3 x4 x5 x6 j = enc X W1 b1 W2 b2 Wg dv i := by
  subst h1 h2 h3 h4 h5
  obtain ⟨p, o, rfl⟩ : ∃ (p : Fin 1000) (o : Fin 768), j = ix2 p o := ⟨j 0, j 1, eq_ix2 j⟩
  obtain ⟨r, o', rfl⟩ : ∃ (r : Fin 100000) (o' : Fin 768), i = ix2 r o' := ⟨i 0, i 1, eq_ix2 i⟩
  have ho : o = o' := (Fin.ext hcol).symm
  subst ho
  have hrow : RowEq (x0 : Mat 1000 400) p X r := h0
  have hl : layers x0 x1 x2 x3 x4 x5 (ix2 p o) = layers X x1 x2 x3 x4 x5 (ix2 r o) :=
    mm_row (addRow_row (mm_row (relu_row (addRow_row (mm_row hrow x1) x2)) x3) x4) x5 o
  rw [pay0_apply]
  show layers x0 x1 x2 x3 x4 x5 (ix2 p o) * x6 (ix2 p (0 : Fin 1))
    = layers X x1 x2 x3 x4 x5 (ix2 r o) * dv (ix2 r (0 : Fin 1))
  rw [hl, h6]

/-! ## Where the blocks sit -/

/-- The block indices at point t: the row-blocked windows sit at block row t, -/
theorem idx_rows0_0 : ∀ t : Fin cfg0.N, win0_0.index t (0 : Fin 2) = t.val ∧ win0_0.index t (1 : Fin 2) = 0 :=
  (by decide +kernel : ∀ t : Fin grid0.N, _)
theorem idx_rows0_6 : ∀ t : Fin cfg0.N, win0_6.index t (0 : Fin 2) = t.val ∧ win0_6.index t (1 : Fin 2) = 0 :=
  (by decide +kernel : ∀ t : Fin grid0.N, _)
theorem idx_rows0_7 : ∀ t : Fin cfg0.N, win0_7.index t (0 : Fin 2) = t.val ∧ win0_7.index t (1 : Fin 2) = 0 :=
  (by decide +kernel : ∀ t : Fin grid0.N, _)

/-- the weights and bias rows at block (0, 0). -/
theorem idx_whole0_1 : ∀ t : Fin cfg0.N, win0_1.index t (0 : Fin 2) = 0 ∧ win0_1.index t (1 : Fin 2) = 0 :=
  (by decide +kernel : ∀ t : Fin grid0.N, _)
theorem idx_whole0_2 : ∀ t : Fin cfg0.N, win0_2.index t (0 : Fin 2) = 0 ∧ win0_2.index t (1 : Fin 2) = 0 :=
  (by decide +kernel : ∀ t : Fin grid0.N, _)
theorem idx_whole0_3 : ∀ t : Fin cfg0.N, win0_3.index t (0 : Fin 2) = 0 ∧ win0_3.index t (1 : Fin 2) = 0 :=
  (by decide +kernel : ∀ t : Fin grid0.N, _)
theorem idx_whole0_4 : ∀ t : Fin cfg0.N, win0_4.index t (0 : Fin 2) = 0 ∧ win0_4.index t (1 : Fin 2) = 0 :=
  (by decide +kernel : ∀ t : Fin grid0.N, _)
theorem idx_whole0_5 : ∀ t : Fin cfg0.N, win0_5.index t (0 : Fin 2) = 0 ∧ win0_5.index t (1 : Fin 2) = 0 :=
  (by decide +kernel : ∀ t : Fin grid0.N, _)

/-- Entry y of the block of X at point t is entry (1000 t + y₀, y₁) of X. -/
theorem blk0_0_apply (c : Dev nD) (t : Fin cfg0.N) (y : S1000x400.Idx) (k : S100000x400.Idx)
    (hk0 : (k 0).val = t.val * 1000 + (y 0).val) (hk1 : (k 1).val = (y 1).val) :
    (iblk0 (F := Ideal) V c 0 t : Vec Ideal S1000x400 .f32) y = (V c main_arg0 : Mat 100000 400) k := by
  obtain ⟨e0, e1⟩ := idx_rows0_0 t
  show V c main_arg0 (((cfg0.win 0).blk t).view.emb y) = V c main_arg0 k
  refine congrArg (V c main_arg0) (funext fun a => Fin.ext ?_)
  match a with
  | ⟨0, _⟩ => show win0_0.index t (0 : Fin 2) * 1000 + 1 * (y 0).val = (k 0).val; rw [e0, hk0]; omega
  | ⟨1, _⟩ => show win0_0.index t (1 : Fin 2) * 400 + 1 * (y 1).val = (k 1).val; rw [e1, hk1]; omega

/-- The block of the first weights is the whole matrix. -/
theorem blk0_1_eq (c : Dev nD) (t : Fin cfg0.N) :
    (iblk0 (F := Ideal) V c 1 t : Vec Ideal S400x768 .bf16) = (V c main_v16 : Mat 400 768) := by
  obtain ⟨e0, e1⟩ := idx_whole0_1 t
  funext y
  show V c main_v16 (((cfg0.win 1).blk t).view.emb y) = V c main_v16 y
  refine congrArg (V c main_v16) (funext fun a => Fin.ext ?_)
  match a with
  | ⟨0, _⟩ => show win0_1.index t (0 : Fin 2) * 400 + 1 * (y 0).val = (y 0).val; rw [e0]; omega
  | ⟨1, _⟩ => show win0_1.index t (1 : Fin 2) * 768 + 1 * (y 1).val = (y 1).val; rw [e1]; omega

/-- The block of the first bias row is the whole row. -/
theorem blk0_2_eq (c : Dev nD) (t : Fin cfg0.N) :
    (iblk0 (F := Ideal) V c 2 t : Vec Ideal S1x768 .f32) = (V c main_v21 : Mat 1 768) := by
  obtain ⟨e0, e1⟩ := idx_whole0_2 t
  funext y
  show V c main_v21 (((cfg0.win 2).blk t).view.emb y) = V c main_v21 y
  refine congrArg (V c main_v21) (funext fun a => Fin.ext ?_)
  match a with
  | ⟨0, _⟩ => show win0_2.index t (0 : Fin 2) * 1 + 1 * (y 0).val = (y 0).val; rw [e0]; omega
  | ⟨1, _⟩ => show win0_2.index t (1 : Fin 2) * 768 + 1 * (y 1).val = (y 1).val; rw [e1]; omega

/-- The block of the second weights is the whole matrix. -/
theorem blk0_3_eq (c : Dev nD) (t : Fin cfg0.N) :
    (iblk0 (F := Ideal) V c 3 t : Vec Ideal S768x768 .bf16) = (V c main_v17 : Mat 768 768) := by
  obtain ⟨e0, e1⟩ := idx_whole0_3 t
  funext y
  show V c main_v17 (((cfg0.win 3).blk t).view.emb y) = V c main_v17 y
  refine congrArg (V c main_v17) (funext fun a => Fin.ext ?_)
  match a with
  | ⟨0, _⟩ => show win0_3.index t (0 : Fin 2) * 768 + 1 * (y 0).val = (y 0).val; rw [e0]; omega
  | ⟨1, _⟩ => show win0_3.index t (1 : Fin 2) * 768 + 1 * (y 1).val = (y 1).val; rw [e1]; omega

/-- The block of the second bias row is the whole row. -/
theorem blk0_4_eq (c : Dev nD) (t : Fin cfg0.N) :
    (iblk0 (F := Ideal) V c 4 t : Vec Ideal S1x768 .f32) = (V c main_v22 : Mat 1 768) := by
  obtain ⟨e0, e1⟩ := idx_whole0_4 t
  funext y
  show V c main_v22 (((cfg0.win 4).blk t).view.emb y) = V c main_v22 y
  refine congrArg (V c main_v22) (funext fun a => Fin.ext ?_)
  match a with
  | ⟨0, _⟩ => show win0_4.index t (0 : Fin 2) * 1 + 1 * (y 0).val = (y 0).val; rw [e0]; omega
  | ⟨1, _⟩ => show win0_4.index t (1 : Fin 2) * 768 + 1 * (y 1).val = (y 1).val; rw [e1]; omega

/-- The block of the graph weights is the whole matrix. -/
theorem blk0_5_eq (c : Dev nD) (t : Fin cfg0.N) :
    (iblk0 (F := Ideal) V c 5 t : Vec Ideal S768x768 .bf16) = (V c main_v18 : Mat 768 768) := by
  obtain ⟨e0, e1⟩ := idx_whole0_5 t
  funext y
  show V c main_v18 (((cfg0.win 5).blk t).view.emb y) = V c main_v18 y
  refine congrArg (V c main_v18) (funext fun a => Fin.ext ?_)
  match a with
  | ⟨0, _⟩ => show win0_5.index t (0 : Fin 2) * 768 + 1 * (y 0).val = (y 0).val; rw [e0]; omega
  | ⟨1, _⟩ => show win0_5.index t (1 : Fin 2) * 768 + 1 * (y 1).val = (y 1).val; rw [e1]; omega

/-- Entry y of the block of the column dv at point t is entry (1000 t + y₀, y₁) of dv. -/
theorem blk0_6_apply (c : Dev nD) (t : Fin cfg0.N) (y : S1000x1.Idx) (k : S100000x1.Idx)
    (hk0 : (k 0).val = t.val * 1000 + (y 0).val) (hk1 : (k 1).val = (y 1).val) :
    (iblk0 (F := Ideal) V c 6 t : Vec Ideal S1000x1 .f32) y = (V c main_v15 : Mat 100000 1) k := by
  obtain ⟨e0, e1⟩ := idx_rows0_6 t
  show V c main_v15 (((cfg0.win 6).blk t).view.emb y) = V c main_v15 k
  refine congrArg (V c main_v15) (funext fun a => Fin.ext ?_)
  match a with
  | ⟨0, _⟩ => show win0_6.index t (0 : Fin 2) * 1000 + 1 * (y 0).val = (k 0).val; rw [e0, hk0]; omega
  | ⟨1, _⟩ => show win0_6.index t (1 : Fin 2) * 1 + 1 * (y 1).val = (k 1).val; rw [e1, hk1]; omega

/-- Entry y of the output block at point t sits at (1000 t + y₀, y₁) of the output array. -/
theorem emb0_7_val (t : Fin cfg0.N) (y : S1000x768.Idx) :
    ((((cfg0.win 7).blk t).view.emb y : S100000x768.Idx) 0).val = t.val * 1000 + (y 0).val
    ∧ ((((cfg0.win 7).blk t).view.emb y : S100000x768.Idx) 1).val = (y 1).val := by
  obtain ⟨e0, e1⟩ := idx_rows0_7 t
  constructor
  · show win0_7.index t (0 : Fin 2) * 1000 + 1 * (y 0).val = _; rw [e0]; omega
  · show win0_7.index t (1 : Fin 2) * 768 + 1 * (y 1).val = _; rw [e1]; omega

/-! ## What a point writes back, the cover, the array -/

/-- What point t writes back is block t of the whole-array function. -/
theorem flushed0_eq (c : Dev nD) (t : Fin cfg0.N) :
    (dat0 (F := Ideal) V c).flushed 7 t
      = ((cfg0.win 7).blk t).view.read (Elt Ideal)
          (enc (V c main_arg0) (V c main_v16) (V c main_v21) (V c main_v17) (V c main_v22) (V c main_v18) (V c main_v15)) := by
  show (cfg0.win 7).cut (grid0.coords t) ((dat0 (F := Ideal) V c).after 7 t) = _
  rw [after0_7]
  unfold out0_7
  rw [View.canon_unit_zero hz0]
  simp only [View.ld_unit_zero (S := S1000x400) hz0, View.ld_unit_zero (S := S400x768) hz0,
    View.ld_unit_zero (S := S1x768) hz0, View.ld_unit_zero (S := S768x768) hz0, View.ld_unit_zero (S := S1000x1) hz0]
  funext j
  show k0_pay1 (F := Ideal) (iblk0 V c 0 t) (iblk0 V c 1 t) (iblk0 V c 2 t) (iblk0 V c 3 t) (iblk0 V c 4 t)
      (iblk0 V c 5 t) (iblk0 V c 6 t) j
    = enc (V c main_arg0) (V c main_v16) (V c main_v21) (V c main_v17) (V c main_v22) (V c main_v18) (V c main_v15)
        (((cfg0.win 7).blk t).view.emb j)
  obtain ⟨he0, he1⟩ := emb0_7_val t j
  refine point0 (iblk0 V c 0 t) (iblk0 V c 1 t) (iblk0 V c 2 t) (iblk0 V c 3 t) (iblk0 V c 4 t) (iblk0 V c 5 t)
    (iblk0 V c 6 t) (V c main_arg0) (V c main_v16) (V c main_v21) (V c main_v17) (V c main_v22) (V c main_v18)
    (V c main_v15) j (((cfg0.win 7).blk t).view.emb j) he1 (fun q => ?_) (blk0_1_eq V c t) (blk0_2_eq V c t)
    (blk0_3_eq V c t) (blk0_4_eq V c t) (blk0_5_eq V c t) ?_
  · exact blk0_0_apply V c t (ix2 (j 0) q) (ix2 ((((cfg0.win 7).blk t).view.emb j) 0) q) he0 rfl
  · exact blk0_6_apply V c t (ix2 (j 0) (0 : Fin 1)) (ix2 ((((cfg0.win 7).blk t).view.emb j) 0) (0 : Fin 1)) he0 rfl

/-- An index of the output array is in point t's block iff each coordinate is in the block's range on its axis. -/
theorem mem_blk0 (t : Fin cfg0.N) (i : S100000x768.Idx) :
    i ∈ ((cfg0.win 7).blk t).view.set ↔ ∀ a : Fin 2, win0_7.index t a * S1000x768.size a ≤ (i a).val
      ∧ (i a).val < win0_7.index t a * S1000x768.size a + S1000x768.size a := by
  show i ∈ ((View.whole main_v23).slice (win0_7.rect t)).set ↔ _
  rw [View.set_slice_whole, Rect.mem_set_unit]
  exact Iff.rfl

/-- Row r of the output array lies in the block of point r / 1000. -/
theorem cover0 (i : S100000x768.Idx) :
    ∃ t : Fin cfg0.N, (cfg0.win 7).flush t = true ∧ i ∈ ((cfg0.win 7).blk t).view.set := by
  have hi0 : (i 0).val < 100000 := (i 0).isLt
  have hi1 : (i 1).val < 768 := (i 1).isLt
  have hN : cfg0.N = 100 := N_0
  obtain ⟨t, ht⟩ : ∃ t : Fin cfg0.N, t.val = (i 0).val / 1000 := ⟨⟨(i 0).val / 1000, by rw [hN]; omega⟩, rfl⟩
  obtain ⟨e0, e1⟩ := idx_rows0_7 t
  refine ⟨t, flush0_7 t, ?_⟩
  rw [mem_blk0]
  intro a
  match a with
  | ⟨0, _⟩ =>
    show win0_7.index t (0 : Fin 2) * 1000 ≤ (i 0).val ∧ (i 0).val < win0_7.index t (0 : Fin 2) * 1000 + 1000
    rw [e0, ht]; omega
  | ⟨1, _⟩ =>
    show win0_7.index t (1 : Fin 2) * 768 ≤ (i 1).val ∧ (i 1).val < win0_7.index t (1 : Fin 2) * 768 + 768
    rw [e1]; omega

/-- The output array after the region: each row of the layers' result scaled by that row's entry of dv. -/
theorem region0_value (c : Dev nD) :
    (dat0 (F := Ideal) V c).arrAt 7 cfg0.N
      = enc (V c main_arg0) (V c main_v16) (V c main_v21) (V c main_v17) (V c main_v22) (V c main_v18) (V c main_v15) :=
  (dat0 (F := Ideal) V c).arrAt_eq_of_cover 7
    (enc (V c main_arg0) (V c main_v16) (V c main_v21) (V c main_v17) (V c main_v22) (V c main_v18) (V c main_v15))
    (fun t _ => flushed0_eq V c t) cover0

end Cert.KernelIdeal.RegionValue

end
-- ==== Proof.Region1Value.lean ====
/-
  The second kernel region as one function of its input arrays.

  The region walks the 100000 rows of H in 100 blocks of 1000 rows.  At block t the body multiplies rows
  1000 t .. 1000 t + 999 of H by the whole weight matrix W and scales row p of the product by entry p of the same rows
  of the column dv.  A row of a matrix product depends on that row of the left factor only, so what block t writes
  back is rows 1000 t .. 1000 t + 999 of the whole-array function  (H W)(r, o) * dv(r, 0); row r lies in block
  r / 1000, so the blocks cover the array and the array ends holding that function.
-/
import proofs.«128012_j34617436405985_2_alg».proof.Proof.Gen.KernelIdeal.Frame
import proofs.«128012_j34617436405985_2_alg».proof.Proof.LayerSpec
import proofs.«128012_j34617436405985_2_alg».proof.Proof.LibRowBlocks
import proofs.«128012_j34617436405985_2_alg».proof.Proof.LibKeepdims
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.LibRowStages Cert.LibRowBlocks Cert.LayerSpec

variable (V : (c : Dev nD) → (b : Ref sig .tc) → Buf (Elt Ideal) ((c : Thread nD τ).loc b))

/-- The zero offsets of a whole-buffer access, as a constant function. -/
theorem hz1 : (![0, 0] : Fin 2 → Nat) = fun _ => 0 := funext fun a => by fin_cases a <;> rfl

/-! ## The body on a block -/

/-- The body's result on a block: the product of the block of rows with the weights, each row scaled by the
    block's column entry of that row. -/
theorem pay1_eq (x0 : Vec Ideal S1000x768 .f32) (x1 : Vec Ideal S768x768 .bf16) (x2 : Vec Ideal S1000x1 .f32) :
    k1_pay1 (F := Ideal) x0 x1 x2
      = mulf (mm x0 x1 : FVec Ideal S1000x768 .f32) (broadcastTo S1000x768 x2 Gen.broadcasts_S1000x1_S1000x768) := by
  unfold k1_pay1
  dsimp only
  simp only [shapeCast_self]
  exact congrArg (fun z : FVec Ideal S1000x768 .f32 => mulf z (broadcastTo S1000x768 x2 Gen.broadcasts_S1000x1_S1000x768))
    (matmul_eq_mm (φ₁ := .bf16) (φ₂ := .bf16) dot_S1000x768_S768x768_S1000x768_1_0_0_1_n_n rfl rfl rfl rfl rfl rfl none
      (truncf .bf16 x0 Gen.bitsLt_bf16_f32 : FVec Ideal S1000x768 .bf16) x1)

/-- The body's result at entry (p, o) of the block. -/
theorem pay1_apply (x0 : Vec Ideal S1000x768 .f32) (x1 : Vec Ideal S768x768 .bf16) (x2 : Vec Ideal S1000x1 .f32)
    (p : Fin 1000) (o : Fin 768) :
    k1_pay1 (F := Ideal) x0 x1 x2 (ix2 p o) = mm x0 x1 (ix2 p o) * x2 (ix2 p (0 : Fin 1)) := by
  rw [pay1_eq]
  show mm x0 x1 (ix2 p o) * broadcastTo S1000x768 x2 Gen.broadcasts_S1000x1_S1000x768 (ix2 p o) = _
  rw [Cert.LibKeepdims.broadcastTo_a1_ab_apply x2 Gen.broadcasts_S1000x1_S1000x768 p o]

/-- An entry of the body's result on a block of rows is the entry of the whole-array function, when the block's row
    is row r of H and of dv and the block of weights is W. -/
theorem point1 (x0 : Vec Ideal S1000x768 .f32) (x1 : Vec Ideal S768x768 .bf16) (x2 : Vec Ideal S1000x1 .f32)
    (H : Mat 100000 768) (W : Mat 768 768) (dv : Mat 100000 1) (j : S1000x768.Idx) (i : S100000x768.Idx)
    (hcol : (i 1).val = (j 1).val)
    (h0 : ∀ q : Fin 768, x0 (ix2 (j 0) q) = H (ix2 (i 0) q))
    (h1 : ∀ q : Fin 768, x1 (ix2 q (j 1)) = W (ix2 q (j 1)))
    (h2 : x2 (ix2 (j 0) (0 : Fin 1)) = dv (ix2 (i 0) (0 : Fin 1))) :
    k1_pay1 (F := Ideal) x0 x1 x2 j = scaled H W dv i := by
  obtain ⟨p, o, rfl⟩ : ∃ (p : Fin 1000) (o : Fin 768), j = ix2 p o := ⟨j 0, j 1, eq_ix2 j⟩
  obtain ⟨r, o', rfl⟩ : ∃ (r : Fin 100000) (o' : Fin 768), i = ix2 r o' := ⟨i 0, i 1, eq_ix2 i⟩
  have ho : o = o' := (Fin.ext hcol).symm
  subst ho
  rw [pay1_apply]
  show mm x0 x1 (ix2 p o) * x2 (ix2 p (0 : Fin 1)) = mm H W (ix2 r o) * dv (ix2 r (0 : Fin 1))
  rw [mm_block x0 x1 H W (ix2 p o) (ix2 r o) h0 h1, h2]

/-! ## Where the blocks sit -/

/-- The block indices at point t: the row-blocked windows sit at block row t, the weights at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Entry y of the block of H at point t is entry (1000 t + y₀, y₁) of H. -/
theorem blk1_0_apply (c : Dev nD) (t : Fin cfg1.N) (y : S1000x768.Idx) (k : S100000x768.Idx)
    (hk0 : (k 0).val = t.val * 1000 + (y 0).val) (hk1 : (k 1).val = (y 1).val) :
    (iblk1 (F := Ideal) V c 0 t : Vec Ideal S1000x768 .f32) y = (V c main_v46 : Mat 100000 768) k := by
  obtain ⟨e0, e1, -⟩ := idx_facts1 t
  show V c main_v46 (((cfg1.win 0).blk t).view.emb y) = V c main_v46 k
  refine congrArg (V c main_v46) (funext fun a => Fin.ext ?_)
  match a with
  | ⟨0, _⟩ => show win1_0.index t (0 : Fin 2) * 1000 + 1 * (y 0).val = (k 0).val; rw [e0, hk0]; omega
  | ⟨1, _⟩ => show win1_0.index t (1 : Fin 2) * 768 + 1 * (y 1).val = (k 1).val; rw [e1, hk1]; omega

/-- The block of weights at every point is the whole weight matrix. -/
theorem blk1_1_apply (c : Dev nD) (t : Fin cfg1.N) (y : S768x768.Idx) :
    (iblk1 (F := Ideal) V c 1 t : Vec Ideal S768x768 .bf16) y = (V c main_v19 : Mat 768 768) y := by
  obtain ⟨-, -, e2, e3, -⟩ := idx_facts1 t
  show V c main_v19 (((cfg1.win 1).blk t).view.emb y) = V c main_v19 y
  refine congrArg (V c main_v19) (funext fun a => Fin.ext ?_)
  match a with
  | ⟨0, _⟩ => show win1_1.index t (0 : Fin 2) * 768 + 1 * (y 0).val = (y 0).val; rw [e2]; omega
  | ⟨1, _⟩ => show win1_1.index t (1 : Fin 2) * 768 + 1 * (y 1).val = (y 1).val; rw [e3]; omega

/-- Entry y of the block of the column dv at point t is entry (1000 t + y₀, y₁) of dv. -/
theorem blk1_2_apply (c : Dev nD) (t : Fin cfg1.N) (y : S1000x1.Idx) (k : S100000x1.Idx)
    (hk0 : (k 0).val = t.val * 1000 + (y 0).val) (hk1 : (k 1).val = (y 1).val) :
    (iblk1 (F := Ideal) V c 2 t : Vec Ideal S1000x1 .f32) y = (V c main_v15 : Mat 100000 1) k := by
  obtain ⟨-, -, -, -, e4, e5, -⟩ := idx_facts1 t
  show V c main_v15 (((cfg1.win 2).blk t).view.emb y) = V c main_v15 k
  refine congrArg (V c main_v15) (funext fun a => Fin.ext ?_)
  match a with
  | ⟨0, _⟩ => show win1_2.index t (0 : Fin 2) * 1000 + 1 * (y 0).val = (k 0).val; rw [e4, hk0]; omega
  | ⟨1, _⟩ => show win1_2.index t (1 : Fin 2) * 1 + 1 * (y 1).val = (k 1).val; rw [e5, hk1]; omega

/-- Entry y of the output block at point t sits at (1000 t + y₀, y₁) of the output array. -/
theorem emb1_3_val (t : Fin cfg1.N) (y : S1000x768.Idx) :
    ((((cfg1.win 3).blk t).view.emb y : S100000x768.Idx) 0).val = t.val * 1000 + (y 0).val
    ∧ ((((cfg1.win 3).blk t).view.emb y : S100000x768.Idx) 1).val = (y 1).val := by
  obtain ⟨-, -, -, -, -, -, e6, e7⟩ := idx_facts1 t
  constructor
  · show win1_3.index t (0 : Fin 2) * 1000 + 1 * (y 0).val = _; rw [e6]; omega
  · show win1_3.index t (1 : Fin 2) * 768 + 1 * (y 1).val = _; rw [e7]; omega

/-! ## What a point writes back, the cover, the array -/

/-- What point t writes back is block t of the whole-array function. -/
theorem flushed1_eq (c : Dev nD) (t : Fin cfg1.N) :
    (dat1 (F := Ideal) V c).flushed 3 t
      = ((cfg1.win 3).blk t).view.read (Elt Ideal) (scaled (V c main_v46) (V c main_v19) (V c main_v15)) := by
  show (cfg1.win 3).cut (grid1.coords t) ((dat1 (F := Ideal) V c).after 3 t) = _
  rw [after1_3]
  unfold out1_3
  rw [View.canon_unit_zero hz1]
  simp only [View.ld_unit_zero (S := S1000x768) hz1, View.ld_unit_zero (S := S768x768) hz1, View.ld_unit_zero (S := S1000x1) hz1]
  funext j
  show k1_pay1 (F := Ideal) (iblk1 V c 0 t) (iblk1 V c 1 t) (iblk1 V c 2 t) j
    = scaled (V c main_v46) (V c main_v19) (V c main_v15) (((cfg1.win 3).blk t).view.emb j)
  obtain ⟨he0, he1⟩ := emb1_3_val t j
  refine point1 (iblk1 V c 0 t) (iblk1 V c 1 t) (iblk1 V c 2 t) (V c main_v46) (V c main_v19) (V c main_v15) j
    (((cfg1.win 3).blk t).view.emb j) he1 (fun q => ?_) (fun q => ?_) ?_
  · exact blk1_0_apply V c t (ix2 (j 0) q) (ix2 ((((cfg1.win 3).blk t).view.emb j) 0) q) he0 rfl
  · exact blk1_1_apply V c t (ix2 q (j 1))
  · exact blk1_2_apply V c t (ix2 (j 0) (0 : Fin 1)) (ix2 ((((cfg1.win 3).blk t).view.emb j) 0) (0 : Fin 1)) he0 rfl

/-- An index of the output array is in point t's block iff each coordinate is in the block's range on its axis. -/
theorem mem_blk1 (t : Fin cfg1.N) (i : S100000x768.Idx) :
    i ∈ ((cfg1.win 3).blk t).view.set ↔ ∀ a : Fin 2, win1_3.index t a * S1000x768.size a ≤ (i a).val
      ∧ (i a).val < win1_3.index t a * S1000x768.size a + S1000x768.size a := by
  show i ∈ ((View.whole main_v47).slice (win1_3.rect t)).set ↔ _
  rw [View.set_slice_whole, Rect.mem_set_unit]
  exact Iff.rfl

/-- Row r of the output array lies in the block of point r / 1000. -/
theorem cover1 (i : S100000x768.Idx) :
    ∃ t : Fin cfg1.N, (cfg1.win 3).flush t = true ∧ i ∈ ((cfg1.win 3).blk t).view.set := by
  have hi0 : (i 0).val < 100000 := (i 0).isLt
  have hi1 : (i 1).val < 768 := (i 1).isLt
  have hN : cfg1.N = 100 := N_1
  obtain ⟨t, ht⟩ : ∃ t : Fin cfg1.N, t.val = (i 0).val / 1000 := ⟨⟨(i 0).val / 1000, by rw [hN]; omega⟩, rfl⟩
  obtain ⟨-, -, -, -, -, -, e6, e7⟩ := idx_facts1 t
  refine ⟨t, flush1_3 t, ?_⟩
  rw [mem_blk1]
  intro a
  match a with
  | ⟨0, _⟩ =>
    show win1_3.index t (0 : Fin 2) * 1000 ≤ (i 0).val ∧ (i 0).val < win1_3.index t (0 : Fin 2) * 1000 + 1000
    rw [e6, ht]; omega
  | ⟨1, _⟩ =>
    show win1_3.index t (1 : Fin 2) * 768 ≤ (i 1).val ∧ (i 1).val < win1_3.index t (1 : Fin 2) * 768 + 768
    rw [e7]; omega

/-- The output array after the region: each row of H W scaled by that row's entry of dv. -/
theorem region1_value (c : Dev nD) :
    (dat1 (F := Ideal) V c).arrAt 3 cfg1.N = scaled (V c main_v46) (V c main_v19) (V c main_v15) :=
  (dat1 (F := Ideal) V c).arrAt_eq_of_cover 3 (scaled (V c main_v46) (V c main_v19) (V c main_v15))
    (fun t _ => flushed1_eq V c t) cover1

end Cert.KernelIdeal.RegionValue

end
-- ==== Proof.Region2Value.lean ====
/-
  The third kernel region as one function of its input arrays.

  The region has one grid point, and every window's block is its whole array: the body multiplies the 1024 rows of A
  by the weight matrix W and adds the bias row b to every row.  So what the one point writes back is the whole-array
  function  (A W)(p, o) + b(0, o), its block is the whole output array, and the array ends holding that function.
-/
import proofs.«128012_j34617436405985_2_alg».proof.Proof.Gen.KernelIdeal.Frame
import proofs.«128012_j34617436405985_2_alg».proof.Proof.LibRowStages
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.LibRowStages

variable (V : (c : Dev nD) → (b : Ref sig .tc) → Buf (Elt Ideal) ((c : Thread nD τ).loc b))

/-- The zero offsets of a whole-buffer access, as a constant function. -/
theorem hz2 : (![0, 0] : Fin 2 → Nat) = fun _ => 0 := funext fun a => by fin_cases a <;> rfl

/-! ## The body -/

/-- The body's result: the product with the weights plus the bias row on every row. -/
theorem pay2_eq (x0 : Vec Ideal S1024x768 .f32) (x1 : Vec Ideal S768x78 .bf16) (x2 : Vec Ideal S1x78 .f32) :
    k2_pay1 (F := Ideal) x0 x1 x2 = addRow (mm x0 x1) x2 := by
  unfold k2_pay1
  dsimp only
  simp only [shapeCast_self]
  exact (congrArg (fun z : FVec Ideal S1024x78 .f32 => addf z (broadcastTo S1024x78 x2 Gen.broadcasts_S1x78_S1024x78))
      (matmul_eq_mm (φ₁ := .bf16) (φ₂ := .bf16) dot_S1024x768_S768x78_S1024x78_1_0_0_1_n_n rfl rfl rfl rfl rfl rfl none
        (truncf .bf16 x0 Gen.bitsLt_bf16_f32 : FVec Ideal S1024x768 .bf16) x1)).trans
    (addf_spread_eq_addRow Gen.broadcasts_S1x78_S1024x78 (mm x0 x1) x2)

/-- An entry of the body's result on blocks that are the whole arrays is the entry of the whole-array function. -/
theorem point2 (x0 : Vec Ideal S1024x768 .f32) (x1 : Vec Ideal S768x78 .bf16) (x2 : Vec Ideal S1x78 .f32)
    (A : Mat 1024 768) (W : Mat 768 78) (b : Mat 1 78) (j i : S1024x78.Idx) (hji : i = j)
    (h0 : x0 = A) (h1 : x1 = W) (h2 : x2 = b) :
    k2_pay1 (F := Ideal) x0 x1 x2 j = addRow (mm A W) b i := by
  subst hji h0 h1 h2
  rw [pay2_eq]

/-! ## Where the blocks sit -/

/-- Every window's block index is (0, 0) at every point. -/
theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The block of A is A. -/
theorem blk2_0_eq (c : Dev nD) (t : Fin cfg2.N) :
    (iblk2 (F := Ideal) V c 0 t : Vec Ideal S1024x768 .f32) = (V c main_v82 : Mat 1024 768) := by
  obtain ⟨e0, e1, -⟩ := idx_facts2 t
  funext y
  show V c main_v82 (((cfg2.win 0).blk t).view.emb y) = V c main_v82 y
  refine congrArg (V c main_v82) (funext fun a => Fin.ext ?_)
  match a with
  | ⟨0, _⟩ => show win2_0.index t (0 : Fin 2) * 1024 + 1 * (y 0).val = (y 0).val; rw [e0]; omega
  | ⟨1, _⟩ => show win2_0.index t (1 : Fin 2) * 768 + 1 * (y 1).val = (y 1).val; rw [e1]; omega

/-- The block of weights is the weight matrix. -/
theorem blk2_1_eq (c : Dev nD) (t : Fin cfg2.N) :
    (iblk2 (F := Ideal) V c 1 t : Vec Ideal S768x78 .bf16) = (V c main_v20 : Mat 768 78) := by
  obtain ⟨-, -, e2, e3, -⟩ := idx_facts2 t
  funext y
  show V c main_v20 (((cfg2.win 1).blk t).view.emb y) = V c main_v20 y
  refine congrArg (V c main_v20) (funext fun a => Fin.ext ?_)
  match a with
  | ⟨0, _⟩ => show win2_1.index t (0 : Fin 2) * 768 + 1 * (y 0).val = (y 0).val; rw [e2]; omega
  | ⟨1, _⟩ => show win2_1.index t (1 : Fin 2) * 78 + 1 * (y 1).val = (y 1).val; rw [e3]; omega

/-- The block of the bias row is the bias row. -/
theorem blk2_2_eq (c : Dev nD) (t : Fin cfg2.N) :
    (iblk2 (F := Ideal) V c 2 t : Vec Ideal S1x78 .f32) = (V c main_v83 : Mat 1 78) := by
  obtain ⟨-, -, -, -, e4, e5, -⟩ := idx_facts2 t
  funext y
  show V c main_v83 (((cfg2.win 2).blk t).view.emb y) = V c main_v83 y
  refine congrArg (V c main_v83) (funext fun a => Fin.ext ?_)
  match a with
  | ⟨0, _⟩ => show win2_2.index t (0 : Fin 2) * 1 + 1 * (y 0).val = (y 0).val; rw [e4]; omega
  | ⟨1, _⟩ => show win2_2.index t (1 : Fin 2) * 78 + 1 * (y 1).val = (y 1).val; rw [e5]; omega

/-- An entry of the output block sits at the same place of the output array. -/
theorem emb2_3_eq (t : Fin cfg2.N) (y : S1024x78.Idx) :
    (((cfg2.win 3).blk t).view.emb y : S1024x78.Idx) = y := by
  obtain ⟨-, -, -, -, -, -, e6, e7⟩ := idx_facts2 t
  funext a
  refine Fin.ext ?_
  match a with
  | ⟨0, _⟩ => show win2_3.index t (0 : Fin 2) * 1024 + 1 * (y 0).val = (y 0).val; rw [e6]; omega
  | ⟨1, _⟩ => show win2_3.index t (1 : Fin 2) * 78 + 1 * (y 1).val = (y 1).val; rw [e7]; omega

/-! ## What the point writes back, the cover, the array -/

/-- What a point writes back is its block of the whole-array function. -/
theorem flushed2_eq (c : Dev nD) (t : Fin cfg2.N) :
    (dat2 (F := Ideal) V c).flushed 3 t
      = ((cfg2.win 3).blk t).view.read (Elt Ideal) (addRow (mm (V c main_v82) (V c main_v20)) (V c main_v83)) := by
  show (cfg2.win 3).cut (grid2.coords t) ((dat2 (F := Ideal) V c).after 3 t) = _
  rw [after2_3]
  unfold out2_3
  rw [View.canon_unit_zero hz2]
  simp only [View.ld_unit_zero (S := S1024x768) hz2, View.ld_unit_zero (S := S768x78) hz2, View.ld_unit_zero (S := S1x78) hz2]
  funext j
  show k2_pay1 (F := Ideal) (iblk2 V c 0 t) (iblk2 V c 1 t) (iblk2 V c 2 t) j
    = addRow (mm (V c main_v82) (V c main_v20)) (V c main_v83) (((cfg2.win 3).blk t).view.emb j)
  exact point2 (iblk2 V c 0 t) (iblk2 V c 1 t) (iblk2 V c 2 t) (V c main_v82) (V c main_v20) (V c main_v83) j
    (((cfg2.win 3).blk t).view.emb j) (emb2_3_eq t j) (blk2_0_eq V c t) (blk2_1_eq V c t) (blk2_2_eq V c t)

/-- An index of the output array is in point t's block iff each coordinate is in the block's range on its axis. -/
theorem mem_blk2 (t : Fin cfg2.N) (i : S1024x78.Idx) :
    i ∈ ((cfg2.win 3).blk t).view.set ↔ ∀ a : Fin 2, win2_3.index t a * S1024x78.size a ≤ (i a).val
      ∧ (i a).val < win2_3.index t a * S1024x78.size a + S1024x78.size a := by
  show i ∈ ((View.whole main_v84).slice (win2_3.rect t)).set ↔ _
  rw [View.set_slice_whole, Rect.mem_set_unit]
  exact Iff.rfl

/-- The one point's block is the whole output array. -/
theorem cover2 (i : S1024x78.Idx) :
    ∃ t : Fin cfg2.N, (cfg2.win 3).flush t = true ∧ i ∈ ((cfg2.win 3).blk t).view.set := by
  have hi0 : (i 0).val < 1024 := (i 0).isLt
  have hi1 : (i 1).val < 78 := (i 1).isLt
  obtain ⟨-, -, -, -, -, -, e6, e7⟩ := idx_facts2 t2_0
  refine ⟨t2_0, flush2_3 t2_0, ?_⟩
  rw [mem_blk2]
  intro a
  match a with
  | ⟨0, _⟩ =>
    show win2_3.index t2_0 (0 : Fin 2) * 1024 ≤ (i 0).val ∧ (i 0).val < win2_3.index t2_0 (0 : Fin 2) * 1024 + 1024
    rw [e6]; omega
  | ⟨1, _⟩ =>
    show win2_3.index t2_0 (1 : Fin 2) * 78 ≤ (i 1).val ∧ (i 1).val < win2_3.index t2_0 (1 : Fin 2) * 78 + 78
    rw [e7]; omega

/-- The output array after the region: A W with the bias row added to every row. -/
theorem region2_value (c : Dev nD) :
    (dat2 (F := Ideal) V c).arrAt 3 cfg2.N = addRow (mm (V c main_v82) (V c main_v20)) (V c main_v83) :=
  (dat2 (F := Ideal) V c).arrAt_eq_of_cover 3 (addRow (mm (V c main_v82) (V c main_v20)) (V c main_v83))
    (fun t _ => flushed2_eq V c t) cover2

end Cert.KernelIdeal.RegionValue

end
-- ==== Proof.KernelFold.lean ====
import proofs.«128012_j34617436405985_2_alg».proof.Proof.Gen.KernelIdeal.Frame
import proofs.«128012_j34617436405985_2_alg».proof.Proof.RefReadP
import Idealize.ShloMosaic.Lib.StableHlo.Run
import proofs.«128012_j34617436405985_2_alg».proof.Proof.LibRowStages
import proofs.«128012_j34617436405985_2_alg».proof.Proof.LibKeepdims
import proofs.«128012_j34617436405985_2_alg».proof.Proof.LibEdgeMessages
import proofs.«128012_j34617436405985_2_alg».proof.Proof.RefStages
import proofs.«128012_j34617436405985_2_alg».proof.Proof.KernelEntry
import proofs.«128012_j34617436405985_2_alg».proof.Proof.Region0Value
import proofs.«128012_j34617436405985_2_alg».proof.Proof.Region1Value
import proofs.«128012_j34617436405985_2_alg».proof.Proof.Region2Value
set_option maxRecDepth 16384
set_option maxHeartbeats 4000000

noncomputable section

namespace Cert.KernelIdeal.Whole

open Idealize.ShloMosaic Idealize.ShloMosaic.TcCoe Idealize.ShloMosaic.Tactic Idealize.ShloMosaic.StableHlo
open Idealize.SL.Sem
open Cert.KernelIdeal Cert.KernelIdeal.Gen
open Cert.ReferenceIdeal.ReadP

variable (m : (ℓ : Loc nD τ sig) → Buf (Elt Ideal) ℓ) (ρ : Dev nD → PrngReg) (c : Dev nD)

open Cert.LibRowStages Cert.LayerSpec Idealize.ShloMosaic.ValueIdx

/-! ## Through the first region

The first region writes, for every node p and feature o, the product of the encoded features with the first
convolution's weights at (p, o) times the degree factor of p.  Every other buffer the later stretches read passes the
region unchanged: it is either one of the region's input arrays or not among its arrays at all. -/

/-- A buffer that is none of the first region's arrays is as it was at entry. -/
theorem W4_keep (b : Ref sig .tc) (hb : ∀ w, Pipeline.arrRef spec0 w ≠ b) :
    W4 m ρ c (Proc.devRef .tc b) = W3 m ρ c (Proc.devRef .tc b) := W4_of_ne m ρ c b hb
/-- An input array of the first region is as it was at entry. -/
theorem W4_in (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))

/-- The first region's output: the first convolution's product, each row scaled by its node's degree factor. -/
theorem W4_v23 : W4 m ρ c (Proc.devRef .tc main_v23)
    = (fun i => val_main_v9 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) i * val_main_v24 (F := Ideal) (m ((c.tc : Thread nD τ).loc main_arg1)) (ix1 (i 0)) :
        FVec Ideal ⟨2, ![100000, 768]⟩ .f32) := by
  refine (W4_arr m ρ c 7).trans ?_
  rw [Cert.KernelIdeal.RegionValue.region0_value (V3 m ρ) c]
  show enc (W3 m ρ c (Proc.devRef .tc main_arg0)) (W3 m ρ c (Proc.devRef .tc main_v16)) (W3 m ρ c (Proc.devRef .tc main_v21))
    (W3 m ρ c (Proc.devRef .tc main_v17)) (W3 m ρ c (Proc.devRef .tc main_v22)) (W3 m ρ c (Proc.devRef .tc main_v18))
    (W3 m ρ c (Proc.devRef .tc main_v15)) = _
  rw [W3_arg0, W3_v16, W3_v21, W3_v17, W3_v22, W3_v18, W3_v15]
  funext i
  obtain ⟨p, o, rfl⟩ : ∃ (p : Fin 100000) (o : Fin 768), i = ix2 p o := ⟨i 0, i 1, eq_ix2 i⟩
  rw [Cert.ReferenceIdeal.Stages.hw1_eq shapeCasts_S768_S1x768]
  show mm _ _ (ix2 p o) * shapeCast S100000x1 (val_main_v24 (F := Ideal) (m ((c.tc : Thread nD τ).loc main_arg1))) shapeCasts_S100000_S100000x1 (ix2 p (0 : Fin 1))
    = mm _ _ (ix2 p o) * val_main_v24 (F := Ideal) (m ((c.tc : Thread nD τ).loc main_arg1)) (ix1 p)
  rw [Cert.LibKeepdims.shapeCast_a_a1_apply]
  try rfl

/-- What the stretches after the first region read of the graph structure and the biases, at the first region's exit. -/
theorem W4_v3 : W4 m ρ c (Proc.devRef .tc main_v3) = val_main_v13 (F := Ideal) (m ((c.tc : Thread nD τ).loc main_arg1)) :=
  (W4_keep m ρ c main_v3 (by decide)).trans (W3_v3 m ρ c)
theorem W4_v6 : W4 m ρ c (Proc.devRef .tc main_v6) = val_main_v16 (F := Ideal) (m ((c.tc : Thread nD τ).loc main_arg1)) :=
  (W4_keep m ρ c main_v6 (by decide)).trans (W3_v6 m ρ c)
theorem W4_v14 : W4 m ρ c (Proc.devRef .tc main_v14) = val_main_v24 (F := Ideal) (m ((c.tc : Thread nD τ).loc main_arg1)) :=
  (W4_keep m ρ c main_v14 (by decide)).trans (W3_v14 m ρ c)
theorem W4_v15 : W4 m ρ c (Proc.devRef .tc main_v15)
    = shapeCast S100000x1 (val_main_v24 (F := Ideal) (m ((c.tc : Thread nD τ).loc main_arg1))) shapeCasts_S100000_S100000x1 :=
  (W4_in m ρ c 6 rfl).trans (W3_v15 m ρ c)
theorem W4_v19 : W4 m ρ c (Proc.devRef .tc main_v19) = (truncf .bf16 (m ((c.tc : Thread nD τ).loc main_arg9)) bitsLt_bf16_f32 : FVec Ideal S768x768 .bf16) :=
  (W4_keep m ρ c main_v19 (by decide)).trans (W3_v19 m ρ c)
theorem W4_v20 : W4 m ρ c (Proc.devRef .tc main_v20) = (truncf .bf16 (m ((c.tc : Thread nD τ).loc main_arg11)) bitsLt_bf16_f32 : FVec Ideal S768x78 .bf16) :=
  (W4_keep m ρ c main_v20 (by decide)).trans (W3_v20 m ρ c)
theorem W4_arg2 : W4 m ρ c (Proc.devRef .tc main_arg2) = (m ((c.tc : Thread nD τ).loc main_arg2)) := (W4_keep m ρ c main_arg2 (by decide)).trans (W3_arg2 m ρ c)
theorem W4_arg8 : W4 m ρ c (Proc.devRef .tc main_arg8) = (m ((c.tc : Thread nD τ).loc main_arg8)) := (W4_keep m ρ c main_arg8 (by decide)).trans (W3_arg8 m ρ c)
theorem W4_arg10 : W4 m ρ c (Proc.devRef .tc main_arg10) = (m ((c.tc : Thread nD τ).loc main_arg10)) :=
  (W4_keep m ρ c main_arg10 (by decide)).trans (W3_arg10 m ρ c)
theorem W4_arg12 : W4 m ρ c (Proc.devRef .tc main_arg12) = (m ((c.tc : Thread nD τ).loc main_arg12)) :=
  (W4_keep m ρ c main_arg12 (by decide)).trans (W3_arg12 m ρ c)

/-! ## The first aggregation

Between the first two regions the host gathers the scaled rows at the edge sources, multiplies each by the degree factor
of the edge's target, sums the messages into their targets and adds the bias.  The reference gathers the unscaled rows
and multiplies by the product of the two degree factors: the same messages, by associativity. -/

/-- The first convolution's output is the reference's. -/
theorem W5_v46 : W5 m ρ c (Proc.devRef .tc main_v46) = val_main_v55 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps1 (W4 m ρ c) (Proc.devRef .tc main_v46) = _
  after_results_simp
  rw [W4_v6, W4_v3, W4_v14, W4_v23, W4_arg8]
  rw [Cert.LibEdgeMessages.message_assoc (N := 100000) (D := 768) (E := 200000) (by norm_num)
    gather_S100000x768_S200000x1_S200000x768_1_0_n_n_0_1_1768 rfl rfl rfl rfl rfl rfl rfl
    gather_S100000_S200000x1_S200000_n_0_n_n_0_1_1 rfl rfl rfl rfl rfl rfl rfl
    bcast_S200000_S200000x1_0 bcast_S200000x1_S200000x768_0_1
    (val_main_v9 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (val_main_v24 (F := Ideal) (m ((c.tc : Thread nD τ).loc main_arg1)))]
  rfl

theorem W5_v3 : W5 m ρ c (Proc.devRef .tc main_v3) = val_main_v13 (F := Ideal) (m ((c.tc : Thread nD τ).loc main_arg1)) := by
  refine Eq.trans ?_ (W4_v3 m ρ c)
  show StableHlo.after hostOps1 (W4 m ρ c) (Proc.devRef .tc main_v3) = _
  after_results_simp <;> rfl
theorem W5_v6 : W5 m ρ c (Proc.devRef .tc main_v6) = val_main_v16 (F := Ideal) (m ((c.tc : Thread nD τ).loc main_arg1)) := by
  refine Eq.trans ?_ (W4_v6 m ρ c)
  show StableHlo.after hostOps1 (W4 m ρ c) (Proc.devRef .tc main_v6) = _
  after_results_simp <;> rfl
theorem W5_v14 : W5 m ρ c (Proc.devRef .tc main_v14) = val_main_v24 (F := Ideal) (m ((c.tc : Thread nD τ).loc main_arg1)) := by
  refine Eq.trans ?_ (W4_v14 m ρ c)
  show StableHlo.after hostOps1 (W4 m ρ c) (Proc.devRef .tc main_v14) = _
  after_results_simp <;> rfl
theorem W5_v15 : W5 m ρ c (Proc.devRef .tc main_v15)
    = shapeCast S100000x1 (val_main_v24 (F := Ideal) (m ((c.tc : Thread nD τ).loc main_arg1))) shapeCasts_S100000_S100000x1 := by
  refine Eq.trans ?_ (W4_v15 m ρ c)
  show StableHlo.after hostOps1 (W4 m ρ c) (Proc.devRef .tc main_v15) = _
  after_results_simp <;> rfl
theorem W5_v19 : W5 m ρ c (Proc.devRef .tc main_v19) = (truncf .bf16 (m ((c.tc : Thread nD τ).loc main_arg9)) bitsLt_bf16_f32 : FVec Ideal S768x768 .bf16) := by
  refine Eq.trans ?_ (W4_v19 m ρ c)
  show StableHlo.after hostOps1 (W4 m ρ c) (Proc.devRef .tc main_v19) = _
  after_results_simp <;> rfl
theorem W5_v20 : W5 m ρ c (Proc.devRef .tc main_v20) = (truncf .bf16 (m ((c.tc : Thread nD τ).loc main_arg11)) bitsLt_bf16_f32 : FVec Ideal S768x78 .bf16) := by
  refine Eq.trans ?_ (W4_v20 m ρ c)
  show StableHlo.after hostOps1 (W4 m ρ c) (Proc.devRef .tc main_v20) = _
  after_results_simp <;> rfl
theorem W5_arg2 : W5 m ρ c (Proc.devRef .tc main_arg2) = (m ((c.tc : Thread nD τ).loc main_arg2)) := by
  refine Eq.trans ?_ (W4_arg2 m ρ c)
  show StableHlo.after hostOps1 (W4 m ρ c) (Proc.devRef .tc main_arg2) = _
  after_results_simp <;> rfl
theorem W5_arg10 : W5 m ρ c (Proc.devRef .tc main_arg10) = (m ((c.tc : Thread nD τ).loc main_arg10)) := by
  refine Eq.trans ?_ (W4_arg10 m ρ c)
  show StableHlo.after hostOps1 (W4 m ρ c) (Proc.devRef .tc main_arg10) = _
  after_results_simp <;> rfl
theorem W5_arg12 : W5 m ρ c (Proc.devRef .tc main_arg12) = (m ((c.tc : Thread nD τ).loc main_arg12)) := by
  refine Eq.trans ?_ (W4_arg12 m ρ c)
  show StableHlo.after hostOps1 (W4 m ρ c) (Proc.devRef .tc main_arg12) = _
  after_results_simp <;> rfl

/-! ## Through the second region -/

/-- The second region's output: the second convolution's product, each row scaled by its node's degree factor. -/
theorem W6_v47 : W6 m ρ c (Proc.devRef .tc main_v47)
    = (fun i => val_main_v56 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) i * val_main_v24 (F := Ideal) (m ((c.tc : Thread nD τ).loc main_arg1)) (ix1 (i 0)) :
        FVec Ideal ⟨2, ![100000, 768]⟩ .f32) := by
  refine (W6_arr m ρ c 3).trans ?_
  rw [Cert.KernelIdeal.RegionValue.region1_value (V5 m ρ) c]
  show scaled (W5 m ρ c (Proc.devRef .tc main_v46)) (W5 m ρ c (Proc.devRef .tc main_v19))
    (W5 m ρ c (Proc.devRef .tc main_v15)) = _
  rw [W5_v46, W5_v19, W5_v15]
  funext i
  obtain ⟨p, o, rfl⟩ : ∃ (p : Fin 100000) (o : Fin 768), i = ix2 p o := ⟨i 0, i 1, eq_ix2 i⟩
  rw [Cert.ReferenceIdeal.Stages.hw2_eq]
  show mm _ _ (ix2 p o) * shapeCast S100000x1 (val_main_v24 (F := Ideal) (m ((c.tc : Thread nD τ).loc main_arg1))) shapeCasts_S100000_S100000x1 (ix2 p (0 : Fin 1))
    = mm _ _ (ix2 p o) * val_main_v24 (F := Ideal) (m ((c.tc : Thread nD τ).loc main_arg1)) (ix1 p)
  rw [Cert.LibKeepdims.shapeCast_a_a1_apply]
  try rfl

theorem W6_v3 : W6 m ρ c (Proc.devRef .tc main_v3) = val_main_v13 (F := Ideal) (m ((c.tc : Thread nD τ).loc main_arg1)) :=
  (W6_of_ne m ρ c main_v3 (by decide)).trans (W5_v3 m ρ c)
theorem W6_v6 : W6 m ρ c (Proc.devRef .tc main_v6) = val_main_v16 (F := Ideal) (m ((c.tc : Thread nD τ).loc main_arg1)) :=
  (W6_of_ne m ρ c main_v6 (by decide)).trans (W5_v6 m ρ c)
theorem W6_v14 : W6 m ρ c (Proc.devRef .tc main_v14) = val_main_v24 (F := Ideal) (m ((c.tc : Thread nD τ).loc main_arg1)) :=
  (W6_of_ne m ρ c main_v14 (by decide)).trans (W5_v14 m ρ c)
theorem W6_v20 : W6 m ρ c (Proc.devRef .tc main_v20) = (truncf .bf16 (m ((c.tc : Thread nD τ).loc main_arg11)) bitsLt_bf16_f32 : FVec Ideal S768x78 .bf16) :=
  (W6_of_ne m ρ c main_v20 (by decide)).trans (W5_v20 m ρ c)
theorem W6_arg2 : W6 m ρ c (Proc.devRef .tc main_arg2) = (m ((c.tc : Thread nD τ).loc main_arg2)) := (W6_of_ne m ρ c main_arg2 (by decide)).trans (W5_arg2 m ρ c)
theorem W6_arg10 : W6 m ρ c (Proc.devRef .tc main_arg10) = (m ((c.tc : Thread nD τ).loc main_arg10)) :=
  (W6_of_ne m ρ c main_arg10 (by decide)).trans (W5_arg10 m ρ c)
theorem W6_arg12 : W6 m ρ c (Proc.devRef .tc main_arg12) = (m ((c.tc : Thread nD τ).loc main_arg12)) :=
  (W6_of_ne m ρ c main_arg12 (by decide)).trans (W5_arg12 m ρ c)

/-! ## The second aggregation and the pooling -/

/-- The second convolution's output, the program's second result, is the reference's. -/
theorem W7_v70 : W7 m ρ c (Proc.devRef .tc main_v70) = val_main_v102 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show StableHlo.after hostOps2 (W6 m ρ c) (Proc.devRef .tc main_v70) = _
  after_results_simp
  rw [W6_v6, W6_v3, W6_v14, W6_v47, W6_arg10]
  rw [Cert.LibEdgeMessages.message_assoc (N := 100000) (D := 768) (E := 200000) (by norm_num)
    gather_S100000x768_S200000x1_S200000x768_1_0_n_n_0_1_1768 rfl rfl rfl rfl rfl rfl rfl
    gather_S100000_S200000x1_S200000_n_0_n_n_0_1_1 rfl rfl rfl rfl rfl rfl rfl
    bcast_S200000_S200000x1_0 bcast_S200000x1_S200000x768_0_1
    (val_main_v56 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (val_main_v24 (F := Ideal) (m ((c.tc : Thread nD τ).loc main_arg1)))]
  rfl

/-- The per-graph means of the second convolution's output are the reference's. -/
theorem W7_v82 : W7 m ρ c (Proc.devRef .tc main_v82) = val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show StableHlo.after hostOps2 (W6 m ρ c) (Proc.devRef .tc main_v82) = _
  after_results_simp
  rw [W6_v6, W6_v3, W6_v14, W6_v47, W6_arg10, W6_arg2]
  rw [Cert.LibEdgeMessages.message_assoc (N := 100000) (D := 768) (E := 200000) (by norm_num)
    gather_S100000x768_S200000x1_S200000x768_1_0_n_n_0_1_1768 rfl rfl rfl rfl rfl rfl rfl
    gather_S100000_S200000x1_S200000_n_0_n_n_0_1_1 rfl rfl rfl rfl rfl rfl rfl
    bcast_S200000_S200000x1_0 bcast_S200000x1_S200000x768_0_1
    (val_main_v56 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (val_main_v24 (F := Ideal) (m ((c.tc : Thread nD τ).loc main_arg1)))]
  rfl

theorem W7_v20 : W7 m ρ c (Proc.devRef .tc main_v20) = (truncf .bf16 (m ((c.tc : Thread nD τ).loc main_arg11)) bitsLt_bf16_f32 : FVec Ideal S768x78 .bf16) := by
  refine Eq.trans ?_ (W6_v20 m ρ c)
  show StableHlo.after hostOps2 (W6 m ρ c) (Proc.devRef .tc main_v20) = _
  after_results_simp <;> rfl
theorem W7_v83 : W7 m ρ c (Proc.devRef .tc main_v83) = shapeCast S1x78 (m ((c.tc : Thread nD τ).loc main_arg12)) shapeCasts_S78_S1x78 := by
  show StableHlo.after hostOps2 (W6 m ρ c) (Proc.devRef .tc main_v83) = _
  after_results_simp
  rw [W6_arg12]
  rfl

/-! ## Through the third region: the two results -/

/-- The class scores are the reference's. -/
theorem W8_v84 : W8 m ρ c (Proc.devRef .tc main_v84) = val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W8_arr m ρ c 3).trans ?_
  rw [Cert.KernelIdeal.RegionValue.region2_value (V7 m ρ) c]
  show addRow (mm (W7 m ρ c (Proc.devRef .tc main_v82)) (W7 m ρ c (Proc.devRef .tc main_v20)))
    (W7 m ρ c (Proc.devRef .tc main_v83)) = _
  rw [W7_v82, W7_v20, W7_v83]
  exact (Cert.ReferenceIdeal.Stages.logits_eq shapeCasts_S78_S1x78 _ _ _ _ _ _ _ _ _ _ _ _ _).symm

/-- The node features after the second convolution are the reference's. -/
theorem W8_v70 : W8 m ρ c (Proc.devRef .tc main_v70) = val_main_v102 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (W8_of_ne m ρ c main_v70 (by decide)).trans (W7_v70 m ρ c)

end Cert.KernelIdeal.Whole

end
-- ==== Proof.lean ====
/-
  The kernel — a two-layer feature encoder fused with the first graph convolution's product, a second product, and a
  classifier, as three kernel regions with the graph's gathers, scatters and the mean pooling on the host between
  them — against the plain reference, on the extended reals.

  Both programs build the same graph structure from the edge list and apply the same aggregation.  They differ in two
  places only.  The kernel regions walk the 100000 node rows in blocks of 1000 and spell each dense stage with the
  matrix unit, where the reference contracts whole arrays: the same matrix products, biases and floor, row by row.  And
  the kernel multiplies each product row by the degree factor of its node before the gather and by the target's factor
  after it, where the reference multiplies the gathered row by the product of the two factors: equal because the
  multiplication of extended reals is associative.  Nothing is distributed or cancelled, so no finiteness is used.
-/
import proofs.«128012_j34617436405985_2_alg».proof.Defs
import proofs.«128012_j34617436405985_2_alg».proof.Proof.Gen.Kernel
import proofs.«128012_j34617436405985_2_alg».proof.Proof.Gen.Kernel.Skeleton
import proofs.«128012_j34617436405985_2_alg».proof.Proof.Gen.Kernel.Launch
import proofs.«128012_j34617436405985_2_alg».proof.Proof.Gen.Kernel.Points
import proofs.«128012_j34617436405985_2_alg».proof.Proof.Gen.Kernel.Frame
import proofs.«128012_j34617436405985_2_alg».proof.Proof.Gen.KernelIdeal
import proofs.«128012_j34617436405985_2_alg».proof.Proof.Gen.KernelIdeal.Skeleton
import proofs.«128012_j34617436405985_2_alg».proof.Proof.Gen.KernelIdeal.Launch
import proofs.«128012_j34617436405985_2_alg».proof.Proof.Gen.KernelIdeal.Points
import proofs.«128012_j34617436405985_2_alg».proof.Proof.Gen.KernelIdeal.Frame
import proofs.«128012_j34617436405985_2_alg».proof.Proof.Gen.ReferenceIdeal
import proofs.«128012_j34617436405985_2_alg».proof.Proof.Gen.Pre_finite_inputs
import proofs.«128012_j34617436405985_2_alg».proof.Proof.RefReadP
import proofs.«128012_j34617436405985_2_alg».proof.Proof.KernelRun
import proofs.«128012_j34617436405985_2_alg».proof.Proof.KernelFold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both runs end with the class scores and the node features at the reference's two stages of the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v84),
    fun c => Cert.KernelIdeal.Gen.W8 m ρ c (Proc.devRef .tc Cert.KernelIdeal.main_v70),
    Cert.KernelIdeal.Whole.run_results (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v118_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.KernelIdeal.Whole.W8_v84 m ρ c).symm
  · rw [Cert.ReferenceIdeal.ReadP.val_main_v102_eq, (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]
    exact (Cert.KernelIdeal.Whole.W8_v70 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
